-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64 : Shape := ⟨3, ![16, 128, 64]⟩
abbrev S16x128x128x64 : Shape := ⟨4, ![16, 128, 128, 64]⟩
abbrev S192x192 : Shape := ⟨2, ![192, 192]⟩
abbrev S192 : Shape := ⟨1, ![192]⟩
abbrev S192x64 : Shape := ⟨2, ![192, 64]⟩
abbrev S64 : Shape := ⟨1, ![64]⟩
abbrev S_ : Shape := ⟨0, ![]⟩

class Facts : Prop where
  bcast_S_S16x128x64 : S_.BroadcastsInDim S16x128x64 (![] : Fin 0 → Fin S16x128x64.rank)
  reducesTo_S16x128x64_S_d0_1_2 : S16x128x64.ReducesTo [0, 1, 2] S_
  h_S_ : 0 < S_.numel
  bcast_S_S16x128x128x64 : S_.BroadcastsInDim S16x128x128x64 (![] : Fin 0 → Fin S16x128x128x64.rank)
  reducesTo_S16x128x128x64_S_d0_1_2_3 : S16x128x128x64.ReducesTo [0, 1, 2, 3] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S192 .f32) (main_arg5 : FVec F S192 .f32) (main_arg6 : FVec F S192x64 .f32) (main_arg7 : FVec F S64 .f32) (main_arg8 : FVec F S64 .f32) (main_arg9 : FVec F S64 .f32) (main_v13 : IVec S_ 1) (main_v16 : IVec S192 1) : IVec S_ 1 :=
  let main_c_5 : IVec S_ 1 := constantI S_ 1 1#1
  let main_v17 : IVec S_ 1 := (fun x v => Host.reduce IntOp.andi x v reducesTo_S192_S_d0 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192x64 .f32 := Host.absf main_arg6
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x128x64 .f32) (main_arg1 : FVec F S16x128x128x64 .f32) (main_arg2 : FVec F S192x192 .f32) (main_arg3 : FVec F S192 .f32) (main_arg4 : FVec F S192 .f32) (main_arg5 : FVec F S192 .f32) (main_arg6 : FVec F S192x64 .f32) (main_arg7 : FVec F S64 .f32) (main_arg8 : FVec F S64 .f32) (main_arg9 : FVec F S64 .f32) : IVec S_ 1 :=
  let main_v0 : FVec F S16x128x64 .f32 := Host.absf main_arg0
  let main_cst : FVec F S_ .f32 := constant S_ .f32 0x7F800000#32
  let main_v1 : FVec F S16x128x64 .f32 := broadcastInDim S16x128x64 ![] bcast_S_S16x128x64 main_cst
  let main_v2 : IVec S16x128x64 1 := cmpf .olt main_v0 main_v1
  let main_c : IVec S_ 1 := constantI S_ 1 1#1
  let main_v3 : IVec S_ 1 := (fun x v => Host.reduce IntOp.andi x v reducesTo_S16x128x64_S_d0_1_2 h_S_) main_v2 main_c
  let main_v4 : FVec F S16x128x128x64 .f32 := Host.absf main_arg1
  let main_cst_0 : FVec F S_ .f32 := constant S_ .f32 0x7F800000#32
  let main_v5 : FVec F S16x128x128x64 .f32 := broadcastInDim S16x128x128x64 ![] bcast_S_S16x128x128x64 main_cst_0
  let main_v6 : IVec S16x128x128x64 1 := cmpf .olt main_v4 main_v5
  let main_c_1 : IVec S_ 1 := constantI S_ 1 1#1
  let main_v7 : IVec S_ 1 := (fun x v => Host.reduce IntOp.andi x v reducesTo_S16x128x128x64_S_d0_1_2_3 h_S_) main_v6 main_c_1
  let main_v8 : IVec S_ 1 := andi main_v3 main_v7
  let main_v9 : FVec F S192x192 .f32 := Host.absf main_arg2
  let main_cst_2 : FVec F S_ .f32 := constant S_ .f32 0x7F800000#32
  let main_v10 : FVec F S192x192 .f32 := broadcastInDim S192x192 ![] bcast_S_S192x192 main_cst_2
  let main_v11 : IVec S192x192 1 := cmpf .olt main_v9 main_v10
  let main_c_3 : IVec S_ 1 := constantI S_ 1 1#1
  let main_v12 : IVec S_ 1 := (fun x v => Host.reduce IntOp.andi x v reducesTo_S192x192_S_d0_1 h_S_) main_v11 main_c_3
  let main_v13 : IVec S_ 1 := andi main_v8 main_v12
  let main_v14 : FVec F S192 .f32 := Host.absf main_arg3
  let main_cst_4 : FVec F S_ .f32 := constant S_ .f32 0x7F800000#32
  let main_v15 : FVec F S192 .f32 := broadcastInDim S192 ![] bcast_S_S192 main_cst_4
  let main_v16 : IVec S192 1 := cmpf .olt main_v14 main_v15
  fn_part1 (F := F) main_arg4 main_arg5 main_arg6 main_arg7 main_arg8 main_arg9 main_v13 main_v16
-- ==== Kernel.lean ====
abbrev S16x128x64 : Shape := ⟨3, ![16, 128, 64]⟩
abbrev S16x128x128x64 : Shape := ⟨4, ![16, 128, 128, 64]⟩
abbrev S192x192 : Shape := ⟨2, ![192, 192]⟩
abbrev S192 : Shape := ⟨1, ![192]⟩
abbrev S192x64 : Shape := ⟨2, ![192, 64]⟩
abbrev S64 : Shape := ⟨1, ![64]⟩
abbrev S1x64x128x64 : Shape := ⟨4, ![1, 64, 128, 64]⟩
abbrev S1x64x64 : Shape := ⟨3, ![1, 64, 64]⟩
abbrev S1x128x64 : Shape := ⟨3, ![1, 128, 64]⟩
abbrev S64x192 : Shape := ⟨2, ![64, 192]⟩
abbrev S128x64 : Shape := ⟨2, ![128, 64]⟩
abbrev S128x192 : Shape := ⟨2, ![128, 192]⟩
abbrev S1x8x128x64 : Shape := ⟨4, ![1, 8, 128, 64]⟩
abbrev S8x128x64 : Shape := ⟨3, ![8, 128, 64]⟩
abbrev S1x8x64 : Shape := ⟨3, ![1, 8, 64]⟩
abbrev S8x64 : Shape := ⟨2, ![8, 64]⟩
abbrev S8x192 : Shape := ⟨2, ![8, 192]⟩
abbrev S1024x64 : Shape := ⟨2, ![1024, 64]⟩
abbrev S1024x192 : Shape := ⟨2, ![1024, 192]⟩
abbrev S8x128x192 : Shape := ⟨3, ![8, 128, 192]⟩
abbrev S1x128x192 : Shape := ⟨3, ![1, 128, 192]⟩
abbrev S8x1x192 : Shape := ⟨3, ![8, 1, 192]⟩
abbrev S1x1x192 : Shape := ⟨3, ![1, 1, 192]⟩
abbrev S8x128 : Shape := ⟨2, ![8, 128]⟩
abbrev S8x128x1 : Shape := ⟨3, ![8, 128, 1]⟩
abbrev S1x64 : Shape := ⟨2, ![1, 64]⟩
abbrev S1024 : Shape := ⟨1, ![1024]⟩
abbrev S1024x1 : Shape := ⟨2, ![1024, 1]⟩

abbrev nBuf : Space → Nat
  | .hbm => 11
  | .vmem => 16
  | .smem => 0
  | _ => 0

abbrev bufTy : (tb : Table) → Fin (tcTables nBuf tb) → BufTy
  | .hbm, ⟨0, _⟩ => ⟨S16x128x64, .f32⟩
  | .hbm, ⟨1, _⟩ => ⟨S16x128x128x64, .f32⟩
  | .hbm, ⟨2, _⟩ => ⟨S192x192, .f32⟩
  | .hbm, ⟨3, _⟩ => ⟨S192, .f32⟩
  | .hbm, ⟨4, _⟩ => ⟨S192, .f32⟩
  | .hbm, ⟨5, _⟩ => ⟨S192, .f32⟩
  | .hbm, ⟨6, _⟩ => ⟨S192x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S16x128x128x64, .f32⟩
  | .local _ .vmem, ⟨0, _⟩ => ⟨S1x64x128x64, .f32⟩
  | .local _ .vmem, ⟨1, _⟩ => ⟨S1x64x128x64, .f32⟩
  | .local _ .vmem, ⟨2, _⟩ => ⟨S1x64x64, .f32⟩
  | .local _ .vmem, ⟨3, _⟩ => ⟨S1x64x64, .f32⟩
  | .local _ .vmem, ⟨4, _⟩ => ⟨S1x128x64, .f32⟩
  | .local _ .vmem, ⟨5, _⟩ => ⟨S1x128x64, .f32⟩
  | .local _ .vmem, ⟨6, _⟩ => ⟨S192x192, .f32⟩
  | .local _ .vmem, ⟨7, _⟩ => ⟨S192, .f32⟩
  | .local _ .vmem, ⟨8, _⟩ => ⟨S192, .f32⟩
  | .local _ .vmem, ⟨9, _⟩ => ⟨S192, .f32⟩
  | .local _ .vmem, ⟨10, _⟩ => ⟨S192x64, .f32⟩
  | .local _ .vmem, ⟨11, _⟩ => ⟨S64, .f32⟩
  | .local _ .vmem, ⟨12, _⟩ => ⟨S64, .f32⟩
  | .local _ .vmem, ⟨13, _⟩ => ⟨S64, .f32⟩
  | .local _ .vmem, ⟨14, _⟩ => ⟨S1x64x128x64, .f32⟩
  | .local _ .vmem, ⟨15, _⟩ => ⟨S1x64x128x64, .f32⟩
  | _, _ => ⟨S16x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![16, 2], ![false, false]⟩

@[reducible] def k0_t1_loop : Scf.Loop 32 :=
  let c0_i32 : BitVec 32 := 0#32
  let c8_i32 : BitVec 32 := 8#32
  let v17 : BitVec 32 := Scalar.addi c0_i32 c8_i32
  let c1_i32 : BitVec 32 := 1#32
  ⟨c0_i32, v17, c1_i32⟩
def k0_mult1 (k0_t1 : Fin k0_t1_loop.trips) : BitVec 32 :=
  let c0_i32_14 : BitVec 32 := 0#32
  let c0_i32 : BitVec 32 := 0#32
  let c1_i32 : BitVec 32 := 1#32
  let arg14 : BitVec 32 := Scf.iv c0_i32 c1_i32 k0_t1
  let c1_i32_13 : BitVec 32 := 1#32
  let v18 : BitVec 32 := Scalar.muli arg14 c1_i32_13
  let v19 : BitVec 32 := Scalar.addi c0_i32_14 v18
  let c8_i32_15 : BitVec 32 := 8#32
  let v20 : BitVec 32 := Scalar.muli v19 c8_i32_15
  v20
def k0_off1 (k0_t1 : Fin k0_t1_loop.trips) : Fin 4 → Nat :=
  let c0_16 : Index := 0#32
  let c0_i32_14 : BitVec 32 := 0#32
  let c0_i32 : BitVec 32 := 0#32
  let c1_i32 : BitVec 32 := 1#32
  let arg14 : BitVec 32 := Scf.iv c0_i32 c1_i32 k0_t1
  let c1_i32_13 : BitVec 32 := 1#32
  let v18 : BitVec 32 := Scalar.muli arg14 c1_i32_13
  let v19 : BitVec 32 := Scalar.addi c0_i32_14 v18
  let c8_i32_15 : BitVec 32 := 8#32
  let v20 : BitVec 32 := Scalar.muli v19 c8_i32_15
  let v21 : BitVec 32 := v20
  let v22 : Index := Scalar.indexCast v21
  let c0_17 : Index := 0#32
  let c0_18 : Index := 0#32
  ![0, v22.toNat, 0, 0]
def k0_off2 (k0_t1 : Fin k0_t1_loop.trips) : Fin 3 → Nat :=
  let c0_19 : Index := 0#32
  let c0_i32_14 : BitVec 32 := 0#32
  let c0_i32 : BitVec 32 := 0#32
  let c1_i32 : BitVec 32 := 1#32
  let arg14 : BitVec 32 := Scf.iv c0_i32 c1_i32 k0_t1
  let c1_i32_13 : BitVec 32 := 1#32
  let v18 : BitVec 32 := Scalar.muli arg14 c1_i32_13
  let v19 : BitVec 32 := Scalar.addi c0_i32_14 v18
  let c8_i32_15 : BitVec 32 := 8#32
  let v20 : BitVec 32 := Scalar.muli v19 c8_i32_15
  let v21 : BitVec 32 := v20
  let v25 : Index := Scalar.indexCast v21
  let c0_20 : Index := 0#32
  ![0, v25.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S192x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S192x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x128x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  inb_S192x192_S192x192_0_0 : ∀ a, (![0, 0] : Fin 2 → Nat) a + S192x192.size a ≤ S192x192.size a
  h_S192x192 : 0 < S192x192.numel
  bitsLt_bf16_f32 : FTy.bits .bf16 < FTy.bits .f32
  slices_S192x192_o0_0_S64x192 : S192x192.Slices ![0, 0] S64x192
  slices_S192x192_o64_0_S64x192 : S192x192.Slices ![64, 0] S64x192
  slices_S192x192_o128_0_S64x192 : S192x192.Slices ![128, 0] S64x192
  inb_S192_S192_0 : ∀ a, (![0] : Fin 1 → Nat) a + S192.size a ≤ S192.size a
  h_S192 : 0 < S192.numel
  inb_S192x64_S192x64_0_0 : ∀ a, (![0, 0] : Fin 2 → Nat) a + S192x64.size a ≤ S192x64.size a
  h_S192x64 : 0 < S192x64.numel
  inb_S64_S64_0 : ∀ a, (![0] : Fin 1 → Nat) a + S64.size a ≤ S64.size a
  h_S64 : 0 < S64.numel
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  h_S1x8x128x64 : 0 < S1x8x128x64.numel
  shapeCasts_S1x8x128x64_S8x128x64 : S1x8x128x64.ShapeCasts S8x128x64
  h_S1x8x64 : 0 < S1x8x64.numel
  shapeCasts_S1x8x64_S8x64 : S1x8x64.ShapeCasts S8x64
  shapeCasts_S8x128x64_S1024x64 : S8x128x64.ShapeCasts S1024x64
  shapeCasts_S1024x192_S8x128x192 : S1024x192.ShapeCasts S8x128x192
  shapeCasts_S128x192_S1x128x192 : S128x192.ShapeCasts S1x128x192
  broadcasts_S1x128x192_S8x128x192 : S1x128x192.Broadcasts S8x128x192
  shapeCasts_S8x192_S8x1x192 : S8x192.ShapeCasts S8x1x192
  broadcasts_S8x1x192_S8x128x192 : S8x1x192.Broadcasts S8x128x192
  shapeCasts_S192_S1x1x192 : S192.ShapeCasts S1x1x192
  broadcasts_S1x1x192_S8x128x192 : S1x1x192.Broadcasts S8x128x192
  reduces_S8x128x192_S8x128 : S8x128x192.Reduces [2] S8x128
  shapeCasts_S8x128_S8x128x1 : S8x128.ShapeCasts S8x128x1
  broadcasts_S8x128x1_S8x128x192 : S8x128x1.Broadcasts S8x128x192
  shapeCasts_S8x128x192_S1024x192 : S8x128x192.ShapeCasts S1024x192
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  shapeCasts_S1024x64_S8x128x64 : S1024x64.ShapeCasts S8x128x64
  shapeCasts_S8x128x64_S1x8x128x64 : S8x128x64.ShapeCasts S1x8x128x64
  dot_S128x64_S64x192_S128x192_1_0_0_1_n_n_wf : DotDims.WF S128x64 S64x192 S128x192 [1] [0] [0] [1] [] []
  dot_S8x64_S64x192_S8x192_1_0_0_1_n_n_wf : DotDims.WF S8x64 S64x192 S8x192 [1] [0] [0] [1] [] []
  dot_S1024x64_S64x192_S1024x192_1_0_0_1_n_n_wf : DotDims.WF S1024x64 S64x192 S1024x192 [1] [0] [0] [1] [] []
  dot_S1024x192_S192x64_S1024x64_1_0_0_1_n_n_wf : DotDims.WF S1024x192 S192x64 S1024x64 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x128x64.size a ≤ S1x64x128x64.size a
  k0_off2_inb : ∀ k0_t1 : Fin k0_t1_loop.trips, ∀ a, (k0_off2 k0_t1) a + S1x8x64.size a ≤ S1x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x64.size a ≤ S16x128x128x64.size a
  hwx0_0 : ∀ i : grid0.Coords, EltTy.bits .f32 = 32 ∨ (Rect.block (s := S16x128x128x64) S1x64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S16x128x64.size a
  hwx0_1 : ∀ i : grid0.Coords, EltTy.bits .f32 = 32 ∨ (Rect.block (s := S16x128x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S16x128x64.size a
  hwx0_2 : ∀ i : grid0.Coords, EltTy.bits .f32 = 32 ∨ (Rect.block (s := S16x128x64) S1x128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .f32 = 32 ∨ (Rect.block (s := S192x192) S192x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192.size a ≤ S192.size a
  hwx0_4 : ∀ i : grid0.Coords, EltTy.bits .f32 = 32 ∨ (Rect.block (s := S192) S192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192.size a ≤ S192.size a
  hwx0_5 : ∀ i : grid0.Coords, EltTy.bits .f32 = 32 ∨ (Rect.block (s := S192) S192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192.size a ≤ S192.size a
  hwx0_6 : ∀ i : grid0.Coords, EltTy.bits .f32 = 32 ∨ (Rect.block (s := S192) S192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S192x64.size a ≤ S192x64.size a
  hwx0_7 : ∀ i : grid0.Coords, EltTy.bits .f32 = 32 ∨ (Rect.block (s := S192x64) S192x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x128x64.size a ≤ S16x128x128x64.size a
  hwx0_11 : ∀ i : grid0.Coords, EltTy.bits .f32 = 32 ∨ (Rect.block (s := S16x128x128x64) S1x64x128x64.size (cc0_transform_11 i) (hinb0_11 i)).WholeWords (EltTy.packing .f32)

variable [Facts₀]

def dot_S128x64_S64x192_S128x192_1_0_0_1_n_n : DotDims S128x64 S64x192 S128x192 where
  lhsContracting := [1]
  rhsContracting := [0]
  lhsNonContracting := [0]
  rhsNonContracting := [1]
  lhsBatch := []
  rhsBatch := []
  wf := dot_S128x64_S64x192_S128x192_1_0_0_1_n_n_wf
def dot_S8x64_S64x192_S8x192_1_0_0_1_n_n : DotDims S8x64 S64x192 S8x192 where
  lhsContracting := [1]
  rhsContracting := [0]
  lhsNonContracting := [0]
  rhsNonContracting := [1]
  lhsBatch := []
  rhsBatch := []
  wf := dot_S8x64_S64x192_S8x192_1_0_0_1_n_n_wf
def dot_S1024x64_S64x192_S1024x192_1_0_0_1_n_n : DotDims S1024x64 S64x192 S1024x192 where
  lhsContracting := [1]
  rhsContracting := [0]
  lhsNonContracting := [0]
  rhsNonContracting := [1]
  lhsBatch := []
  rhsBatch := []
  wf := dot_S1024x64_S64x192_S1024x192_1_0_0_1_n_n_wf
def dot_S1024x192_S192x64_S1024x64_1_0_0_1_n_n : DotDims S1024x192 S192x64 S1024x64 where
  lhsContracting := [1]
  rhsContracting := [0]
  lhsNonContracting := [0]
  rhsNonContracting := [1]
  lhsBatch := []
  rhsBatch := []
  wf := dot_S1024x192_S192x64_S1024x64_1_0_0_1_n_n_wf

abbrev win0_0 : Pipeline.Window sig grid0 :=
  Pipeline.Window.ofSpec (Memref.whole main_arg1) S1x64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S192x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x64x128x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x128x64 : Shape := ⟨3, ![16, 128, 64]⟩
abbrev S16x128x128x64 : Shape := ⟨4, ![16, 128, 128, 64]⟩
abbrev S192x192 : Shape := ⟨2, ![192, 192]⟩
abbrev S192 : Shape := ⟨1, ![192]⟩
abbrev S192x64 : Shape := ⟨2, ![192, 64]⟩
abbrev S64 : Shape := ⟨1, ![64]⟩
abbrev S16x1x128x64 : Shape := ⟨4, ![16, 1, 128, 64]⟩
abbrev S16x128x1x64 : Shape := ⟨4, ![16, 128, 1, 64]⟩
abbrev S16x128x128x192 : Shape := ⟨4, ![16, 128, 128, 192]⟩
abbrev S1x1x1x192 : Shape := ⟨4, ![1, 1, 1, 192]⟩
abbrev S_ : Shape := ⟨0, ![]⟩
abbrev S16x128x128 : Shape := ⟨3, ![16, 128, 128]⟩
abbrev S16x128x128x1 : Shape := ⟨4, ![16, 128, 128, 1]⟩
abbrev S1x1x1x64 : Shape := ⟨4, ![1, 1, 1, 64]⟩

abbrev nBuf : Space → Nat
  | .hbm => 85
  | .vmem => 0
  | .smem => 0
  | _ => 0

abbrev bufTy : (tb : Table) → Fin (tcTables nBuf tb) → BufTy
  | .hbm, ⟨0, _⟩ => ⟨S16x128x64, .f32⟩
  | .hbm, ⟨1, _⟩ => ⟨S16x128x128x64, .f32⟩
  | .hbm, ⟨2, _⟩ => ⟨S192x192, .f32⟩
  | .hbm, ⟨3, _⟩ => ⟨S192, .f32⟩
  | .hbm, ⟨4, _⟩ => ⟨S192, .f32⟩
  | .hbm, ⟨5, _⟩ => ⟨S192, .f32⟩
  | .hbm, ⟨6, _⟩ => ⟨S192x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S16x1x128x64, .f32⟩
  | .hbm, ⟨11, _⟩ => ⟨S16x128x128x64, .f32⟩
  | .hbm, ⟨12, _⟩ => ⟨S16x128x1x64, .f32⟩
  | .hbm, ⟨13, _⟩ => ⟨S16x128x128x64, .f32⟩
  | .hbm, ⟨14, _⟩ => ⟨S16x128x128x192, .f32⟩
  | .hbm, ⟨15, _⟩ => ⟨S16x128x128x192, .f32⟩
  | .hbm, ⟨16, _⟩ => ⟨S1x1x1x192, .f32⟩
  | .hbm, ⟨17, _⟩ => ⟨S16x128x128x192, .f32⟩
  | .hbm, ⟨18, _⟩ => ⟨S16x128x128x192, .f32⟩
  | .hbm, ⟨19, _⟩ => ⟨S_, .f32⟩
  | .hbm, ⟨20, _⟩ => ⟨S16x128x128, .f32⟩
  | .hbm, ⟨21, _⟩ => ⟨S16x128x128x1, .f32⟩
  | .hbm, ⟨22, _⟩ => ⟨S_, .f32⟩
  | .hbm, ⟨23, _⟩ => ⟨S16x128x128x1, .f32⟩
  | .hbm, ⟨24, _⟩ => ⟨S16x128x128x1, .f32⟩
  | .hbm, ⟨25, _⟩ => ⟨S16x128x128x192, .f32⟩
  | .hbm, ⟨26, _⟩ => ⟨S16x128x128x192, .f32⟩
  | .hbm, ⟨27, _⟩ => ⟨S16x128x128x192, .f32⟩
  | .hbm, ⟨28, _⟩ => ⟨S_, .f32⟩
  | .hbm, ⟨29, _⟩ => ⟨S16x128x128, .f32⟩
  | .hbm, ⟨30, _⟩ => ⟨S16x128x128x1, .f32⟩
  | .hbm, ⟨31, _⟩ => ⟨S_, .f32⟩
  | .hbm, ⟨32, _⟩ => ⟨S16x128x128x1, .f32⟩
  | .hbm, ⟨33, _⟩ => ⟨S16x128x128x1, .f32⟩
  | .hbm, ⟨34, _⟩ => ⟨S16x128x128x192, .f32⟩
  | .hbm, ⟨35, _⟩ => ⟨S16x128x128x192, .f32⟩
  | .hbm, ⟨36, _⟩ => ⟨S_, .f32⟩
  | .hbm, ⟨37, _⟩ => ⟨S16x128x128x1, .f32⟩
  | .hbm, ⟨38, _⟩ => ⟨S16x128x128x1, .f32⟩
  | .hbm, ⟨39, _⟩ => ⟨S16x128x128x1, .f32⟩
  | .hbm, ⟨40, _⟩ => ⟨S16x128x128x192, .f32⟩
  | .hbm, ⟨41, _⟩ => ⟨S16x128x128x192, .f32⟩
  | .hbm, ⟨42, _⟩ => ⟨S1x1x1x192, .f32⟩
  | .hbm, ⟨43, _⟩ => ⟨S16x128x128x192, .f32⟩
  | .hbm, ⟨44, _⟩ => ⟨S16x128x128x192, .f32⟩
  | .hbm, ⟨45, _⟩ => ⟨S1x1x1x192, .f32⟩
  | .hbm, ⟨46, _⟩ => ⟨S16x128x128x192, .f32⟩
  | .hbm, ⟨47, _⟩ => ⟨S16x128x128x192, .f32⟩
  | .hbm, ⟨48, _⟩ => ⟨S_, .f32⟩
  | .hbm, ⟨49, _⟩ => ⟨S16x128x128x192, .f32⟩
  | .hbm, ⟨50, _⟩ => ⟨S16x128x128x192, .f32⟩
  | .hbm, ⟨51, _⟩ => ⟨S16x128x128x64, .f32⟩
  | .hbm, ⟨52, _⟩ => ⟨S1x1x1x64, .f32⟩
  | .hbm, ⟨53, _⟩ => ⟨S16x128x128x64, .f32⟩
  | .hbm, ⟨54, _⟩ => ⟨S16x128x128x64, .f32⟩
  | .hbm, ⟨55, _⟩ => ⟨S16x128x128x64, .f32⟩
  | .hbm, ⟨56, _⟩ => ⟨S_, .f32⟩
  | .hbm, ⟨57, _⟩ => ⟨S16x128x128, .f32⟩
  | .hbm, ⟨58, _⟩ => ⟨S16x128x128x1, .f32⟩
  | .hbm, ⟨59, _⟩ => ⟨S_, .f32⟩
  | .hbm, ⟨60, _⟩ => ⟨S16x128x128x1, .f32⟩
  | .hbm, ⟨61, _⟩ => ⟨S16x128x128x1, .f32⟩
  | .hbm, ⟨62, _⟩ => ⟨S16x128x128x64, .f32⟩
  | .hbm, ⟨63, _⟩ => ⟨S16x128x128x64, .f32⟩
  | .hbm, ⟨64, _⟩ => ⟨S16x128x128x64, .f32⟩
  | .hbm, ⟨65, _⟩ => ⟨S_, .f32⟩
  | .hbm, ⟨66, _⟩ => ⟨S16x128x128, .f32⟩
  | .hbm, ⟨67, _⟩ => ⟨S16x128x128x1, .f32⟩
  | .hbm, ⟨68, _⟩ => ⟨S_, .f32⟩
  | .hbm, ⟨69, _⟩ => ⟨S16x128x128x1, .f32⟩
  | .hbm, ⟨70, _⟩ => ⟨S16x128x128x1, .f32⟩
  | .hbm, ⟨71, _⟩ => ⟨S16x128x128x64, .f32⟩
  | .hbm, ⟨72, _⟩ => ⟨S16x128x128x64, .f32⟩
  | .hbm, ⟨73, _⟩ => ⟨S_, .f32⟩
  | .hbm, ⟨74, _⟩ => ⟨S16x128x128x1, .f32⟩
  | .hbm, ⟨75, _⟩ => ⟨S16x128x128x1, .f32⟩
  | .hbm, ⟨76, _⟩ => ⟨S16x128x128x1, .f32⟩
  | .hbm, ⟨77, _⟩ => ⟨S16x128x128x64, .f32⟩
  | .hbm, ⟨78, _⟩ => ⟨S16x128x128x64, .f32⟩
  | .hbm, ⟨79, _⟩ => ⟨S1x1x1x64, .f32⟩
  | .hbm, ⟨80, _⟩ => ⟨S16x128x128x64, .f32⟩
  | .hbm, ⟨81, _⟩ => ⟨S16x128x128x64, .f32⟩
  | .hbm, ⟨82, _⟩ => ⟨S1x1x1x64, .f32⟩
  | .hbm, ⟨83, _⟩ => ⟨S16x128x128x64, .f32⟩
  | .hbm, ⟨84, _⟩ => ⟨S16x128x128x64, .f32⟩
  | _, _ => ⟨S16x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  bcast_S16x128x64_S16x1x128x64_0_2_3 : S16x128x64.BroadcastsInDim S16x1x128x64 (![0, 2, 3] : Fin 3 → Fin S16x1x128x64.rank)
  bcast_S16x1x128x64_S16x128x128x64_0_1_2_3 : S16x1x128x64.BroadcastsInDim S16x128x128x64 (![0, 1, 2, 3] : Fin 4 → Fin S16x128x128x64.rank)
  bcast_S16x128x64_S16x128x1x64_0_1_3 : S16x128x64.BroadcastsInDim S16x128x1x64 (![0, 1, 3] : Fin 3 → Fin S16x128x1x64.rank)
  bcast_S16x128x1x64_S16x128x128x64_0_1_2_3 : S16x128x1x64.BroadcastsInDim S16x128x128x64 (![0, 1, 2, 3] : Fin 4 → Fin S16x128x128x64.rank)
  concatenates_S16x128x128x64_S16x128x128x64_S16x128x128x64_S16x128x128x192_d3 : Shape.Concatenates [S16x128x128x64, S16x128x128x64, S16x128x128x64] S16x128x128x192 3
  bcast_S192_S1x1x1x192_3 : S192.BroadcastsInDim S1x1x1x192 (![3] : Fin 1 → Fin S1x1x1x192.rank)
  bcast_S1x1x1x192_S16x128x128x192_0_1_2_3 : S1x1x1x192.BroadcastsInDim S16x128x128x192 (![0, 1, 2, 3] : Fin 4 → Fin S16x128x128x192.rank)
  reducesTo_S16x128x128x192_S16x128x128_d3 : S16x128x128x192.ReducesTo [3] S16x128x128
  h_S_ : 0 < S_.numel
  bcast_S16x128x128_S16x128x128x1_0_1_2 : S16x128x128.BroadcastsInDim S16x128x128x1 (![0, 1, 2] : Fin 3 → Fin S16x128x128x1.rank)
  bcast_S_S16x128x128x1 : S_.BroadcastsInDim S16x128x128x1 (![] : Fin 0 → Fin S16x128x128x1.rank)
  bcast_S16x128x128x1_S16x128x128x192_0_1_2_3 : S16x128x128x1.BroadcastsInDim S16x128x128x192 (![0, 1, 2, 3] : Fin 4 → Fin S16x128x128x192.rank)
  bcast_S_S16x128x128x192 : S_.BroadcastsInDim S16x128x128x192 (![] : Fin 0 → Fin S16x128x128x192.rank)
  bcast_S64_S1x1x1x64_3 : S64.BroadcastsInDim S1x1x1x64 (![3] : Fin 1 → Fin S1x1x1x64.rank)
  bcast_S1x1x1x64_S16x128x128x64_0_1_2_3 : S1x1x1x64.BroadcastsInDim S16x128x128x64 (![0, 1, 2, 3] : Fin 4 → Fin S16x128x128x64.rank)
  reducesTo_S16x128x128x64_S16x128x128_d3 : S16x128x128x64.ReducesTo [3] S16x128x128
  bcast_S16x128x128x1_S16x128x128x64_0_1_2_3 : S16x128x128x1.BroadcastsInDim S16x128x128x64 (![0, 1, 2, 3] : Fin 4 → Fin S16x128x128x64.rank)
  dot_S16x128x128x192_S192x192_S16x128x128x192_3_0_012_1_n_n_wf : DotDims.WF S16x128x128x192 S192x192 S16x128x128x192 [3] [0] [0, 1, 2] [1] [] []
  dot_S16x128x128x192_S192x64_S16x128x128x64_3_0_012_1_n_n_wf : DotDims.WF S16x128x128x192 S192x64 S16x128x128x64 [3] [0] [0, 1, 2] [1] [] []

variable [Facts₀]

def dot_S16x128x128x192_S192x192_S16x128x128x192_3_0_012_1_n_n : DotDims S16x128x128x192 S192x192 S16x128x128x192 where
  lhsContracting := [3]
  rhsContracting := [0]
  lhsNonContracting := [0, 1, 2]
  rhsNonContracting := [1]
  lhsBatch := []
  rhsBatch := []
  wf := dot_S16x128x128x192_S192x192_S16x128x128x192_3_0_012_1_n_n_wf
def dot_S16x128x128x192_S192x64_S16x128x128x64_3_0_012_1_n_n : DotDims S16x128x128x192 S192x64 S16x128x128x64 where
  lhsContracting := [3]
  rhsContracting := [0]
  lhsNonContracting := [0, 1, 2]
  rhsNonContracting := [1]
  lhsBatch := []
  rhsBatch := []
  wf := dot_S16x128x128x192_S192x64_S16x128x128x64_3_0_012_1_n_n_wf

class Facts : Prop extends Facts₀ where

variable [Facts]
-- ==== Proof.BitsBlocks.lean ====
/-
  The windows' blocks. The pallas_call is the whole of @main, so a core's buffers when the region is entered are the
  launch memory. Every input window is uncut and never idle, so its current staging buffer holds, at every grid point,
  the block of its array that the point's index names — fetched at that point or left there by an earlier one whose
  index was the same — as long as the body leaves input blocks as it found them. Eleven input windows (the edge block,
  the row nodes' block, the column nodes' block, and eight parameter arrays), one statement each.
-/
import proofs.«173648_j75866302317034_2_alg».proof.Proof.Gen.Kernel.Launch
import proofs.«173648_j75866302317034_2_alg».proof.Proof.Gen.Kernel.Skeleton
import proofs.«173648_j75866302317034_2_alg».proof.Proof.Gen.Kernel.Loops
import proofs.«173648_j75866302317034_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place. -/
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place. -/
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place. -/
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place. -/
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    entry contents and whose body leaves the block in place. -/
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    entry contents and whose body leaves the block in place. -/
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    entry contents and whose body leaves the block in place. -/
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, for any proof data whose array is the
    entry contents and whose body leaves the block in place. -/
theorem before_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, for any proof data whose array is the
    entry contents and whose body leaves the block in place. -/
theorem before_of_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, for any proof data whose array is the
    entry contents and whose body leaves the block in place. -/
theorem before_of_10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S1x64x128x64 .f32 := (Memref.whole cc0_stg11_0 : Memref sig .tc .vmem S1x64x128x64 .f32).view
abbrev ms_0 (t : Fin cfg0.N) : Memref sig .tc .vmem S1x64x128x64 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x64x64 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128x64 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S192x192 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S192 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S192 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S192 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S192x64 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S64 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S64 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S64 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x64x128x64 .f32 := win0_11.stage (cfg0.slots t 11)
abbrev hs_11 (t : Fin cfg0.N) : (ms_11 t).IsWhole := hstage0_11 ((cfg0.slots t 11).cast nbuf0_11)

end Cert.Kernel.Hand

end
-- ==== Proof.BitsBody.lean ====
/-
  The kernel body on any staging memrefs. Held: each of the eleven input buffers whole at its contents, the output
  buffer whole at anything. The body loads the parameters and the column nodes' block once, then eight times loads an
  eight-row chunk of the edge block and of the row nodes' block and stores an eight-row chunk of the output. It runs
  to its end with the inputs as they were and the output buffer overwritten by a list of pieces, the eight stores;
  the list is the witness of the subtype below.
-/
import proofs.«173648_j75866302317034_2_alg».proof.Proof.BitsBlocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref, as pieces (last first), with the proof that on whole
    staging memrefs the body runs to the continuation holding the inputs as they were and the output's buffer with
    those pieces written. -/
noncomputable def kernelRun (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) :
    { L : List (View.Piece (Elt F) S1x64x128x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L)) -∗ K ⟨⟩))
          ⊢ wp frame (wpE (defs₀ (F := F)) Variants.none c none) E (cc0__edge_update_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__edge_update_kernel_eq_skeleton]; unfold cc0__edge_update_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    iexists _; iexact H13

end Cert.Kernel.Hand

end
-- ==== Proof.LibSharedLaunch.lean ====
/-
  A frame run for a pipeline whose windows may share an array.

  When one array is handed to a kernel through several input windows, the buffers behind the windows' arrays are fewer
  than the windows, and the full share of a shared buffer has to be dealt among the windows on it. The statement below
  is the frame run of one pipeline with no prefetched table and no semaphore of the kernel's own, in that situation: the
  caller says how the distinct buffers, each whole at the full share at its contents when the region is entered, make up
  the proof data's arrays (`hsplit`), and the region invariant is entered from, and returned to, the core's scoped
  buffers that are no staging buffer (`hin`, `hout`) — the generator register is not handed to the body. The
  conclusion is the library's frame post: every window's array at what the proof data compute after the last
  write-back, every unscoped buffer that is no window's array at its contents when the region was entered.
-/
import Idealize.ShloMosaic.Lib.Pipeline.Frame

noncomputable section

namespace Cert.SharedLaunch

open Idealize.ShloMosaic Idealize.ShloMosaic.Pipeline Idealize.ShloMosaic.Rounds Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of pipeline `p` when its windows may share arrays: from the layout facts less the arrays'
    distinctness, the body obligation, the shape of @main up to the region, the dealing of the shared buffers'
    shares (`hsplit`) and an invariant entered from and returned to the scoped rest, every weakly fair execution
    terminates in a state satisfying the frame post. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact Pipeline.θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => by
      refine (show _ ⊢ (scopedRest (Ix := Unit) (Name := ℕ) (U := UR sig nD τ) (Lvl := ℕ) (Val := Val) (cfgs p).spec c : sProp 𝕄) from ?_).trans (hin c)
      iintro ⟨-, HR⟩; iexact HR)
    (hout := fun c => by
      refine (hout c).trans ?_
      iintro HR
      isplitr; · iempintro
      iexact HR)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedLaunch

end
-- ==== Proof.BitsFrame.lean ====
/-
  The frame of the program: it runs to its end, faults nowhere, and leaves its ten argument arrays as they were.

  The pallas_call stages the node features twice — once by rows, once whole — so two input windows read one array, and
  the array's full share is dealt between them, half each; every other input array is held whole, and the result
  array is the output window's. The proof data say what each staging buffer holds after the body at each grid point:
  an input's its block, the output's the body's eight stored chunks read back, which cover the block. The body
  obligation is the body's run at the point's buffers and blocks; the launch is the frame run for windows that share
  an array.
-/
import proofs.«173648_j75866302317034_2_alg».proof.Proof.BitsBody
import proofs.«173648_j75866302317034_2_alg».proof.Proof.LibSharedLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block (eight stores of eight rows each), so they cover it. -/
theorem cover_out (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) (y : S1x64x128x64.Idx) :
    ∃ pc ∈ (kernelRun c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12).1 S1x8x128x64.size (by sl_kernel_rfl) y

/-- What the run leaves in the output's staging buffer: its pieces read back over junk. -/
def outOf (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) : Vec F S1x64x128x64 .f32 :=
  VO.read (Elt F) (VO.writes (Elt F) VO.junk (kernelRun c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12).1)

/-- What the output's staging buffer holds after the body at point `t`: the run's contents at the point's memrefs and
    input blocks. -/
def outAt (c : Dev nD) (t : Fin cfg0.N) : Vec F S1x64x128x64 .f32 :=
  outOf c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The proof data on core `c`: the arrays as launched; after the body at point `t` each input's buffer at its block
    and the output's at `outAt`; the invariant the scoped rest; nothing owed; the node features' array held half by
    each of its two windows, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outAt m c t := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d
theorem before_8 (c : Dev nD) (t : Fin cfg0.N) (d) : (dats m 0 c).before 8 t d = iblk m c 8 t :=
  before_of_8 m (dats m 0 c) (A_eq m c 8) (after_8 m c) t d
theorem before_9 (c : Dev nD) (t : Fin cfg0.N) (d) : (dats m 0 c).before 9 t d = iblk m c 9 t :=
  before_of_9 m (dats m 0 c) (A_eq m c 9) (after_9 m c) t d
theorem before_10 (c : Dev nD) (t : Fin cfg0.N) (d) : (dats m 0 c).before 10 t d = iblk m c 10 t :=
  before_of_10 m (dats m 0 c) (A_eq m c 10) (after_10 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t))

set_option maxHeartbeats 2000000 in
/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  unfold outAt
  unfold outOf
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover_out c _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.lean ====
/-
  The launch. The distinct buffers behind the windows' arrays are eleven: the ten arguments and the result. Each is
  handed over whole; the node features' buffer is split into its two half shares, one for the window that reads it by
  rows and one for the window that reads it whole, and the other ten go to their one window as they are. With the body
  obligation this gives the frame run, and reading each argument back through an input window on it — an input array
  is never written — gives the frame: the ten argument arrays end as they were.
-/
import proofs.«173648_j75866302317034_2_alg».proof.Proof.BitsFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays, each a whole buffer, held at the window's share. -/
theorem arrays_eq (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The distinct buffers behind the windows' arrays, one by one. -/
theorem arrBufs_chain (Ψ : Ref sig .tc → sProp 𝕄) :
    bigSep (Finset.univ.image (Pipeline.arrRef spec0)) Ψ
      = iprop(Ψ main_arg1 ∗ Ψ main_arg0 ∗ Ψ main_arg2 ∗ Ψ main_arg3 ∗ Ψ main_arg4 ∗ Ψ main_arg5 ∗ Ψ main_arg6 ∗ Ψ main_arg7 ∗ Ψ main_arg8 ∗ Ψ main_arg9 ∗ Ψ main_v0) :=
  bigSep_eq_bigSepL_of_eq [main_arg1, main_arg0, main_arg2, main_arg3, main_arg4, main_arg5, main_arg6, main_arg7, main_arg8, main_arg9, main_v0] (by decide) (by decide) Ψ

/-- The buffers behind the arrays, each whole at the full share, make the proof data's arrays at entry: the node
    features' full share is its two halves. -/
theorem hsplit (c : Dev nD) : (Pipeline.arrBufs spec0 c (V m c) : sProp 𝕄) ⊢ (dats m 0 c).arrays ((dats m 0 c).arrAt · 0) := by
  rw [arrays_eq, bigSep_W0]
  unfold Pipeline.arrBufs
  rw [arrBufs_chain]
  iintro ⟨H1, H0, H2, H3, H4, H5, H6, H7, H8, H9, Hv⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hv

set_option backward.isDefEq.respectTransparency.types false in
/-- Every weakly fair execution of @main terminates, every window's array at what the proof data compute, every other
    unscoped buffer as the region found it. -/
theorem run_main : θ_run defs (onTc (τ := τ) (main (F := F))) (s₀ m ρ) (Pipeline.FramePost cfgs (dats m) 0 (V m)) :=
  Cert.SharedLaunch.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The run with the result array named and the arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 11,
      ((h c).1 1).trans (((dats m 0 c).arrAt_in 1 rfl _).trans (A_eq m c 1)),
      ((h c).1 0).trans (((dats m 0 c).arrAt_in 0 rfl _).trans (A_eq m c 0)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10))⟩) (run_main m ρ)

/-- The frame: the ten argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_named m ρ)

end Cert.Kernel.Hand

end
-- ==== Proof.IdealBlocks.lean ====
/-
  The windows' blocks. The pallas_call is the whole of @main, so a core's buffers when the region is entered are the
  launch memory. Every input window is uncut and never idle, so its current staging buffer holds, at every grid point,
  the block of its array that the point's index names — fetched at that point or left there by an earlier one whose
  index was the same — as long as the body leaves input blocks as it found them. Eleven input windows (the edge block,
  the row nodes' block, the column nodes' block, and eight parameter arrays), one statement each.
-/
import proofs.«173648_j75866302317034_2_alg».proof.Proof.Gen.KernelIdeal.Launch
import proofs.«173648_j75866302317034_2_alg».proof.Proof.Gen.KernelIdeal.Skeleton
import proofs.«173648_j75866302317034_2_alg».proof.Proof.Gen.KernelIdeal.Loops
import proofs.«173648_j75866302317034_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    entry contents and whose body leaves the block in place. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    entry contents and whose body leaves the block in place. -/
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    entry contents and whose body leaves the block in place. -/
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, for any proof data whose array is the
    entry contents and whose body leaves the block in place. -/
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, for any proof data whose array is the
    entry contents and whose body leaves the block in place. -/
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, for any proof data whose array is the
    entry contents and whose body leaves the block in place. -/
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, for any proof data whose array is the
    entry contents and whose body leaves the block in place. -/
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, for any proof data whose array is the
    entry contents and whose body leaves the block in place. -/
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, for any proof data whose array is the
    entry contents and whose body leaves the block in place. -/
theorem before_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, for any proof data whose array is the
    entry contents and whose body leaves the block in place. -/
theorem before_of_9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, for any proof data whose array is the
    entry contents and whose body leaves the block in place. -/
theorem before_of_10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- One staging buffer of the output window, through which its contents are stated. -/
abbrev VO : View sig .tc .vmem S1x64x128x64 .f32 := (Memref.whole cc0_stg11_0 : Memref sig .tc .vmem S1x64x128x64 .f32).view
abbrev ms_0 (t : Fin cfg0.N) : Memref sig .tc .vmem S1x64x128x64 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x64x64 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128x64 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S192x192 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S192 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S192 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S192 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S192x64 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S64 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S64 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S64 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x64x128x64 .f32 := win0_11.stage (cfg0.slots t 11)
abbrev hs_11 (t : Fin cfg0.N) : (ms_11 t).IsWhole := hstage0_11 ((cfg0.slots t 11).cast nbuf0_11)

end Cert.KernelIdeal.Hand

end
-- ==== Proof.IdealBody.lean ====
/-
  The kernel body on any staging memrefs. Held: each of the eleven input buffers whole at its contents, the output
  buffer whole at anything. The body loads the parameters and the column nodes' block once, then eight times loads an
  eight-row chunk of the edge block and of the row nodes' block and stores an eight-row chunk of the output. It runs
  to its end with the inputs as they were and the output buffer overwritten by a list of pieces, the eight stores;
  the list is the witness of the subtype below.
-/
import proofs.«173648_j75866302317034_2_alg».proof.Proof.IdealBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging memref, as pieces (last first), with the proof that on whole
    staging memrefs the body runs to the continuation holding the inputs as they were and the output's buffer with
    those pieces written. -/
noncomputable def kernelRun (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) :
    { L : List (View.Piece (Elt F) S1x64x128x64 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L)) -∗ K ⟨⟩))
          ⊢ wp frame (wpE (defs₀ (F := F)) Variants.none c none) E (cc0__edge_update_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__edge_update_kernel_eq_skeleton]; unfold cc0__edge_update_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    iexists _; iexact H13

end Cert.KernelIdeal.Hand

end
-- ==== Proof.IdealFrame.lean ====
/-
  The frame of the program: it runs to its end, faults nowhere, and leaves its ten argument arrays as they were.

  The pallas_call stages the node features twice — once by rows, once whole — so two input windows read one array, and
  the array's full share is dealt between them, half each; every other input array is held whole, and the result
  array is the output window's. The proof data say what each staging buffer holds after the body at each grid point:
  an input's its block, the output's the body's eight stored chunks read back, which cover the block. The body
  obligation is the body's run at the point's buffers and blocks; the launch is the frame run for windows that share
  an array.
-/
import proofs.«173648_j75866302317034_2_alg».proof.Proof.IdealBody
import proofs.«173648_j75866302317034_2_alg».proof.Proof.LibSharedLaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block (eight stores of eight rows each), so they cover it. -/
theorem cover_out (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) (y : S1x64x128x64.Idx) :
    ∃ pc ∈ (kernelRun c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12).1 S1x8x128x64.size (by sl_kernel_rfl) y

/-- What the run leaves in the output's staging buffer: its pieces read back over junk. -/
def outOf (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) : Vec F S1x64x128x64 .f32 :=
  VO.read (Elt F) (VO.writes (Elt F) VO.junk (kernelRun c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12).1)

/-- What the output's staging buffer holds after the body at point `t`: the run's contents at the point's memrefs and
    input blocks. -/
def outAt (c : Dev nD) (t : Fin cfg0.N) : Vec F S1x64x128x64 .f32 :=
  outOf c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The proof data on core `c`: the arrays as launched; after the body at point `t` each input's buffer at its block
    and the output's at `outAt`; the invariant the scoped rest; nothing owed; the node features' array held half by
    each of its two windows, every other input array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outAt m c t := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d
theorem before_8 (c : Dev nD) (t : Fin cfg0.N) (d) : (dats m 0 c).before 8 t d = iblk m c 8 t :=
  before_of_8 m (dats m 0 c) (A_eq m c 8) (after_8 m c) t d
theorem before_9 (c : Dev nD) (t : Fin cfg0.N) (d) : (dats m 0 c).before 9 t d = iblk m c 9 t :=
  before_of_9 m (dats m 0 c) (A_eq m c 9) (after_9 m c) t d
theorem before_10 (c : Dev nD) (t : Fin cfg0.N) (d) : (dats m 0 c).before 10 t d = iblk m c 10 t :=
  before_of_10 m (dats m 0 c) (A_eq m c 10) (after_10 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t))

set_option maxHeartbeats 2000000 in
/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  unfold outAt
  unfold outOf
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover_out c _ _ _ _ _ _ _ _ _ _ _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.lean ====
/-
  The launch. The distinct buffers behind the windows' arrays are eleven: the ten arguments and the result. Each is
  handed over whole; the node features' buffer is split into its two half shares, one for the window that reads it by
  rows and one for the window that reads it whole, and the other ten go to their one window as they are. With the body
  obligation this gives the frame run, and reading each argument back through an input window on it — an input array
  is never written — gives the frame: the ten argument arrays end as they were.
-/
import proofs.«173648_j75866302317034_2_alg».proof.Proof.IdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data's arrays, each a whole buffer, held at the window's share. -/
theorem arrays_eq (c : Dev nD) (G : (w : Fin cfg0.W) → Buf (Elt F) ((cfg0.win w).arr.view.loc (c.tc : Thread nD τ))) :
    (dats m 0 c).arrays G = bigSep Finset.univ fun w => (((c.tc : Thread nD τ).loc (Pipeline.arrRef spec0 w)) ↦{(dats m 0 c).share w} G w : sProp 𝕄) := by
  unfold Dat.arrays
  exact bigSep_congr fun w _ => by rw [(arr_whole0 w).set_eq_univ]

/-- The distinct buffers behind the windows' arrays, one by one. -/
theorem arrBufs_chain (Ψ : Ref sig .tc → sProp 𝕄) :
    bigSep (Finset.univ.image (Pipeline.arrRef spec0)) Ψ
      = iprop(Ψ main_arg1 ∗ Ψ main_arg0 ∗ Ψ main_arg2 ∗ Ψ main_arg3 ∗ Ψ main_arg4 ∗ Ψ main_arg5 ∗ Ψ main_arg6 ∗ Ψ main_arg7 ∗ Ψ main_arg8 ∗ Ψ main_arg9 ∗ Ψ main_v0) :=
  bigSep_eq_bigSepL_of_eq [main_arg1, main_arg0, main_arg2, main_arg3, main_arg4, main_arg5, main_arg6, main_arg7, main_arg8, main_arg9, main_v0] (by decide) (by decide) Ψ

/-- The buffers behind the arrays, each whole at the full share, make the proof data's arrays at entry: the node
    features' full share is its two halves. -/
theorem hsplit (c : Dev nD) : (Pipeline.arrBufs spec0 c (V m c) : sProp 𝕄) ⊢ (dats m 0 c).arrays ((dats m 0 c).arrAt · 0) := by
  rw [arrays_eq, bigSep_W0]
  unfold Pipeline.arrBufs
  rw [arrBufs_chain]
  iintro ⟨H1, H0, H2, H3, H4, H5, H6, H7, H8, H9, Hv⟩
  ihave H0' := (pointsTo_share (PosShare.mem_left_op_right fullShare)).1 $$ H0
  icases H0' with ⟨H0l, H0r⟩
  isplitl [H1]; · iexact H1
  isplitl [H0l]; · iexact H0l
  isplitl [H0r]; · iexact H0r
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact Hv

set_option backward.isDefEq.respectTransparency.types false in
/-- Every weakly fair execution of @main terminates, every window's array at what the proof data compute, every other
    unscoped buffer as the region found it. -/
theorem run_main : θ_run defs (onTc (τ := τ) (main (F := F))) (s₀ m ρ) (Pipeline.FramePost cfgs (dats m) 0 (V m)) :=
  Cert.SharedLaunch.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := fun _ => .rfl) (hout := fun _ => .rfl)

/-- The run with the result array named and the arguments unchanged. -/
theorem run_named : θ_run defs (onTc (τ := τ) (main (F := F))) ⟨m, fun _ => 0, ρ⟩ (fun r => ∀ c : Dev nD,
      r.2.mem ((c.tc : Thread nD τ).loc main_v0) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 11,
      ((h c).1 1).trans (((dats m 0 c).arrAt_in 1 rfl _).trans (A_eq m c 1)),
      ((h c).1 0).trans (((dats m 0 c).arrAt_in 0 rfl _).trans (A_eq m c 0)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10))⟩) (run_main m ρ)

/-- The frame: the ten argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_named m ρ)

end Cert.KernelIdeal.Hand

end
-- ==== Proof.IdealArray.lean ====
/-
  The result array after the run, as one function of what each grid point leaves in the output's staging buffer, and the
  input windows' blocks read at an index of their arrays.

  The grid has 16 × 2 points, run row-major: point t has coordinates (t / 2, t % 2). The output window's block at that
  point is rows 64 · (t % 2) … 64 · (t % 2) + 63 of batch element t / 2, and is written back at every point; the 32 blocks
  tile the array, so the element at (b, i, j, q) is the one point 2 · b + i / 64 wrote at row i % 64 of its block.
-/
import proofs.«173648_j75866302317034_2_alg».proof.Proof.IdealFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output window: from blocks to the array -/

/-- The output window's block index at point `t`, decided over the grid: batch element `t / 2`, half `t % 2`. -/
theorem out_index : ∀ t : Fin cfg0.N, win0_11.index t (0 : Fin 4) = t.val / 2 ∧ win0_11.index t (1 : Fin 4) = t.val % 2
    ∧ win0_11.index t (2 : Fin 4) = 0 ∧ win0_11.index t (3 : Fin 4) = 0 :=
  (by decide +kernel : ∀ t : Fin grid0.N, win0_11.index t (0 : Fin 4) = t.val / 2 ∧ win0_11.index t (1 : Fin 4) = t.val % 2
    ∧ win0_11.index t (2 : Fin 4) = 0 ∧ win0_11.index t (3 : Fin 4) = 0)

/-- The point whose output block holds row `(y 0, y 1)` of the result. -/
def ptOf (y : S16x128x128x64.Idx) : Fin cfg0.N :=
  ⟨(y 0).val * 2 + (y 1).val / 64, by
    have h0 : (y 0).val < 16 := (y 0).isLt
    have h1 : (y 1).val < 128 := (y 1).isLt
    show _ < grid0.N
    rw [N_0]; omega⟩

theorem ptOf_val (y : S16x128x128x64.Idx) : (ptOf y).val = (y 0).val * 2 + (y 1).val / 64 := rfl

/-- The result array as the points leave it: the element at `y` is what point `ptOf y` left at row `y 1 % 64` of the
    output's staging buffer. -/
def Garr (c : Dev nD) : S16x128x128x64.Idx → Elt F .f32 := fun y =>
  outAt m c (ptOf y) (ix4 (0 : Fin 1) (⟨(y 1).val % 64, Nat.mod_lt _ (by decide)⟩ : Fin 64) (y 2) (y 3))

/-- An index of the result array is in point `t`'s block iff each coordinate is in the block's range on its axis. -/
theorem mem_out_blk (t : Fin cfg0.N) (i : S16x128x128x64.Idx) :
    i ∈ ((cfg0.win 11).blk t).view.set ↔ ∀ a : Fin 4, win0_11.index t a * S1x64x128x64.size a ≤ (i a).val
      ∧ (i a).val < win0_11.index t a * S1x64x128x64.size a + S1x64x128x64.size a := by
  show i ∈ ((View.whole main_v0).slice (win0_11.rect t)).set ↔ _
  rw [View.set_slice_whole, Rect.mem_set_unit]
  exact Iff.rfl

/-- What point `t` writes back is block `t` of `Garr`. -/
theorem flushed_out_eq (c : Dev nD) (t : Fin cfg0.N) :
    (dats m 0 c).flushed 11 t = ((cfg0.win 11).blk t).view.read (Elt F) (Garr m c) := by
  show (cfg0.win 11).cut (grid0.coords t) ((dats m 0 c).after 11 t) = _
  rw [after_11]
  obtain ⟨e0, e1, e2, e3⟩ := out_index t
  funext x
  have hx0 : (x 0).val < 1 := (x 0).isLt
  have hx1 : (x 1).val < 64 := (x 1).isLt
  have hx2 : (x 2).val < 128 := (x 2).isLt
  have hx3 : (x 3).val < 64 := (x 3).isLt
  have hy0 : ((((cfg0.win 11).blk t).view.emb x) 0).val = win0_11.index t (0 : Fin 4) * 1 + 1 * (x 0).val := rfl
  have hy1 : ((((cfg0.win 11).blk t).view.emb x) 1).val = win0_11.index t (1 : Fin 4) * 64 + 1 * (x 1).val := rfl
  have hy2 : ((((cfg0.win 11).blk t).view.emb x) 2).val = win0_11.index t (2 : Fin 4) * 128 + 1 * (x 2).val := rfl
  have hy3 : ((((cfg0.win 11).blk t).view.emb x) 3).val = win0_11.index t (3 : Fin 4) * 64 + 1 * (x 3).val := rfl
  have hpt : ptOf (((cfg0.win 11).blk t).view.emb x) = t := Fin.ext (by rw [ptOf_val, hy0, hy1, e0, e1]; omega)
  show outAt m c t ((cfg0.win 11).xinj (grid0.coords t) x) = Garr m c (((cfg0.win 11).blk t).view.emb x)
  unfold Garr
  rw [hpt]
  refine congrArg (outAt m c t) (funext fun a => Fin.ext ?_)
  match a with
  | ⟨0, _⟩ => show (x 0).val = 0; omega
  | ⟨1, _⟩ => show (x 1).val = ((((cfg0.win 11).blk t).view.emb x) 1).val % 64; rw [hy1, e1]; omega
  | ⟨2, _⟩ => show (x 2).val = ((((cfg0.win 11).blk t).view.emb x) 2).val; rw [hy2, e2]; omega
  | ⟨3, _⟩ => show (x 3).val = ((((cfg0.win 11).blk t).view.emb x) 3).val; rw [hy3, e3]; omega

/-- Every index of the result array is in the block of the point `ptOf` names. -/
theorem out_cover (i : S16x128x128x64.Idx) :
    ∃ t : Fin cfg0.N, (cfg0.win 11).flush t = true ∧ i ∈ ((cfg0.win 11).blk t).view.set := by
  refine ⟨ptOf i, flush0_11 _, ?_⟩
  rw [mem_out_blk]
  obtain ⟨e0, e1, e2, e3⟩ := out_index (ptOf i)
  have hi0 : (i 0).val < 16 := (i 0).isLt
  have hi1 : (i 1).val < 128 := (i 1).isLt
  have hi2 : (i 2).val < 128 := (i 2).isLt
  have hi3 : (i 3).val < 64 := (i 3).isLt
  rw [ptOf_val] at e0 e1
  intro a
  match a with
  | ⟨0, _⟩ => show win0_11.index (ptOf i) (0 : Fin 4) * 1 ≤ (i 0).val ∧ (i 0).val < win0_11.index (ptOf i) (0 : Fin 4) * 1 + 1; omega
  | ⟨1, _⟩ => show win0_11.index (ptOf i) (1 : Fin 4) * 64 ≤ (i 1).val ∧ (i 1).val < win0_11.index (ptOf i) (1 : Fin 4) * 64 + 64; omega
  | ⟨2, _⟩ => show win0_11.index (ptOf i) (2 : Fin 4) * 128 ≤ (i 2).val ∧ (i 2).val < win0_11.index (ptOf i) (2 : Fin 4) * 128 + 128; omega
  | ⟨3, _⟩ => show win0_11.index (ptOf i) (3 : Fin 4) * 64 ≤ (i 3).val ∧ (i 3).val < win0_11.index (ptOf i) (3 : Fin 4) * 64 + 64; omega

/-- The result array after the run is `Garr`: the 32 blocks tile it and each point writes its own. -/
theorem final (c : Dev nD) : (dats m 0 c).arrAt 11 cfg0.N = Garr m c :=
  (dats m 0 c).arrAt_eq_of_cover 11 (Garr m c) (fun t _ => flushed_out_eq m c t) out_cover

/-! ## The input windows' blocks at an index of their arrays -/

/-- A point's number is below the grid's 32. -/
theorem pt_lt (t : Fin cfg0.N) : t.val < 32 :=
  lt_of_lt_of_eq t.isLt (show cfg0.N = 32 from N_0)

/-- The batch element point `t` works on. -/
abbrev ptB (t : Fin cfg0.N) : Fin 16 := ⟨t.val / 2, by have := pt_lt t; omega⟩

/-- The row of the array that row `r` of point `t`'s 64-row block is. -/
abbrev ptRow (t : Fin cfg0.N) (r : Fin 64) : Fin 128 := ⟨64 * (t.val % 2) + r.val, by have := r.isLt; omega⟩

/-- The three moving input windows' block indices at point `t`, decided over the grid. -/
theorem in_index : ∀ t : Fin cfg0.N,
    (win0_0.index t (0 : Fin 4) = t.val / 2 ∧ win0_0.index t (1 : Fin 4) = t.val % 2
      ∧ win0_0.index t (2 : Fin 4) = 0 ∧ win0_0.index t (3 : Fin 4) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = 0 ∧ win0_2.index t (2 : Fin 3) = 0) :=
  (by decide +kernel : ∀ t : Fin grid0.N,
    (win0_0.index t (0 : Fin 4) = t.val / 2 ∧ win0_0.index t (1 : Fin 4) = t.val % 2
      ∧ win0_0.index t (2 : Fin 4) = 0 ∧ win0_0.index t (3 : Fin 4) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = 0 ∧ win0_2.index t (2 : Fin 3) = 0))

/-- The parameter windows' block indices are zero at every point, decided over the grid. -/
theorem param_index : ∀ t : Fin cfg0.N,
    (win0_3.index t (0 : Fin 2) = 0 ∧ win0_3.index t (1 : Fin 2) = 0)
    ∧ win0_4.index t (0 : Fin 1) = 0 ∧ win0_5.index t (0 : Fin 1) = 0 ∧ win0_6.index t (0 : Fin 1) = 0
    ∧ (win0_7.index t (0 : Fin 2) = 0 ∧ win0_7.index t (1 : Fin 2) = 0)
    ∧ win0_8.index t (0 : Fin 1) = 0 ∧ win0_9.index t (0 : Fin 1) = 0 ∧ win0_10.index t (0 : Fin 1) = 0 :=
  (by decide +kernel : ∀ t : Fin grid0.N,
    (win0_3.index t (0 : Fin 2) = 0 ∧ win0_3.index t (1 : Fin 2) = 0)
    ∧ win0_4.index t (0 : Fin 1) = 0 ∧ win0_5.index t (0 : Fin 1) = 0 ∧ win0_6.index t (0 : Fin 1) = 0
    ∧ (win0_7.index t (0 : Fin 2) = 0 ∧ win0_7.index t (1 : Fin 2) = 0)
    ∧ win0_8.index t (0 : Fin 1) = 0 ∧ win0_9.index t (0 : Fin 1) = 0 ∧ win0_10.index t (0 : Fin 1) = 0)

/-- The edge block at point `t` is rows `64 (t % 2) …` of batch element `t / 2` of the edge features. -/
theorem iblk0_apply (c : Dev nD) (t : Fin cfg0.N) (r : Fin 64) (j : Fin 128) (k : Fin 64) :
    (iblk m c 0 t : Vec F S1x64x128x64 .f32) (ix4 (0 : Fin 1) r j k)
      = (m ((c : Thread nD τ).loc main_arg1) : S16x128x128x64.Idx → Elt F .f32) (ix4 (ptB t) (ptRow t r) j k) := by
  obtain ⟨⟨e0, e1, e2, e3⟩, -, -⟩ := in_index t
  unfold iblk
  rw [View.read_apply]
  show V m c main_arg1 _ = m (c.tc.loc main_arg1) _
  unfold V
  refine congrArg (m (c.tc.loc main_arg1)) (funext fun a => Fin.ext ?_)
  match a with
  | ⟨0, _⟩ => show win0_0.index t (0 : Fin 4) * 1 + 1 * 0 = t.val / 2; rw [e0]; omega
  | ⟨1, _⟩ => show win0_0.index t (1 : Fin 4) * 64 + 1 * r.val = 64 * (t.val % 2) + r.val; rw [e1]; omega
  | ⟨2, _⟩ => show win0_0.index t (2 : Fin 4) * 128 + 1 * j.val = j.val; rw [e2]; omega
  | ⟨3, _⟩ => show win0_0.index t (3 : Fin 4) * 64 + 1 * k.val = k.val; rw [e3]; omega

/-- The row nodes' block at point `t` is rows `64 (t % 2) …` of batch element `t / 2` of the node features. -/
theorem iblk1_apply (c : Dev nD) (t : Fin cfg0.N) (r : Fin 64) (k : Fin 64) :
    (iblk m c 1 t : Vec F S1x64x64 .f32) (ix3 (0 : Fin 1) r k)
      = (m ((c : Thread nD τ).loc main_arg0) : S16x128x64.Idx → Elt F .f32) (ix3 (ptB t) (ptRow t r) k) := by
  obtain ⟨-, ⟨e0, e1, e2⟩, -⟩ := in_index t
  unfold iblk
  rw [View.read_apply]
  show V m c main_arg0 _ = m (c.tc.loc main_arg0) _
  unfold V
  refine congrArg (m (c.tc.loc main_arg0)) (funext fun a => Fin.ext ?_)
  match a with
  | ⟨0, _⟩ => show win0_1.index t (0 : Fin 3) * 1 + 1 * 0 = t.val / 2; rw [e0]; omega
  | ⟨1, _⟩ => show win0_1.index t (1 : Fin 3) * 64 + 1 * r.val = 64 * (t.val % 2) + r.val; rw [e1]; omega
  | ⟨2, _⟩ => show win0_1.index t (2 : Fin 3) * 64 + 1 * k.val = k.val; rw [e2]; omega

/-- The column nodes' block at point `t` is all of batch element `t / 2` of the node features. -/
theorem iblk2_apply (c : Dev nD) (t : Fin cfg0.N) (j : Fin 128) (k : Fin 64) :
    (iblk m c 2 t : Vec F S1x128x64 .f32) (ix3 (0 : Fin 1) j k)
      = (m ((c : Thread nD τ).loc main_arg0) : S16x128x64.Idx → Elt F .f32) (ix3 (ptB t) j k) := by
  obtain ⟨-, -, ⟨e0, e1, e2⟩⟩ := in_index t
  unfold iblk
  rw [View.read_apply]
  show V m c main_arg0 _ = m (c.tc.loc main_arg0) _
  unfold V
  refine congrArg (m (c.tc.loc main_arg0)) (funext fun a => Fin.ext ?_)
  match a with
  | ⟨0, _⟩ => show win0_2.index t (0 : Fin 3) * 1 + 1 * 0 = t.val / 2; rw [e0]; omega
  | ⟨1, _⟩ => show win0_2.index t (1 : Fin 3) * 128 + 1 * j.val = j.val; rw [e1]; omega
  | ⟨2, _⟩ => show win0_2.index t (2 : Fin 3) * 64 + 1 * k.val = k.val; rw [e2]; omega

/-- The first layer's weights are held whole. -/
theorem iblk3_apply (c : Dev nD) (t : Fin cfg0.N) (k l : Fin 192) :
    (iblk m c 3 t : Vec F S192x192 .f32) (ix2 k l)
      = (m ((c : Thread nD τ).loc main_arg2) : S192x192.Idx → Elt F .f32) (ix2 k l) := by
  obtain ⟨⟨e0, e1⟩, -⟩ := param_index t
  unfold iblk
  rw [View.read_apply]
  show V m c main_arg2 _ = m (c.tc.loc main_arg2) _
  unfold V
  refine congrArg (m (c.tc.loc main_arg2)) (funext fun a => Fin.ext ?_)
  match a with
  | ⟨0, _⟩ => show win0_3.index t (0 : Fin 2) * 192 + 1 * k.val = k.val; rw [e0]; omega
  | ⟨1, _⟩ => show win0_3.index t (1 : Fin 2) * 192 + 1 * l.val = l.val; rw [e1]; omega

/-- The first layer's bias is held whole. -/
theorem iblk4_apply (c : Dev nD) (t : Fin cfg0.N) (l : Fin 192) :
    (iblk m c 4 t : Vec F S192 .f32) (ix1 l) = (m ((c : Thread nD τ).loc main_arg3) : S192.Idx → Elt F .f32) (ix1 l) := by
  obtain ⟨-, e, -⟩ := param_index t
  unfold iblk
  rw [View.read_apply]
  show V m c main_arg3 _ = m (c.tc.loc main_arg3) _
  unfold V
  refine congrArg (m (c.tc.loc main_arg3)) (funext fun a => Fin.ext ?_)
  match a with
  | ⟨0, _⟩ => show win0_4.index t (0 : Fin 1) * 192 + 1 * l.val = l.val; rw [e]; omega

/-- The first layer norm's scale is held whole. -/
theorem iblk5_apply (c : Dev nD) (t : Fin cfg0.N) (l : Fin 192) :
    (iblk m c 5 t : Vec F S192 .f32) (ix1 l) = (m ((c : Thread nD τ).loc main_arg4) : S192.Idx → Elt F .f32) (ix1 l) := by
  obtain ⟨-, -, e, -⟩ := param_index t
  unfold iblk
  rw [View.read_apply]
  show V m c main_arg4 _ = m (c.tc.loc main_arg4) _
  unfold V
  refine congrArg (m (c.tc.loc main_arg4)) (funext fun a => Fin.ext ?_)
  match a with
  | ⟨0, _⟩ => show win0_5.index t (0 : Fin 1) * 192 + 1 * l.val = l.val; rw [e]; omega

/-- The first layer norm's shift is held whole. -/
theorem iblk6_apply (c : Dev nD) (t : Fin cfg0.N) (l : Fin 192) :
    (iblk m c 6 t : Vec F S192 .f32) (ix1 l) = (m ((c : Thread nD τ).loc main_arg5) : S192.Idx → Elt F .f32) (ix1 l) := by
  obtain ⟨-, -, -, e, -⟩ := param_index t
  unfold iblk
  rw [View.read_apply]
  show V m c main_arg5 _ = m (c.tc.loc main_arg5) _
  unfold V
  refine congrArg (m (c.tc.loc main_arg5)) (funext fun a => Fin.ext ?_)
  match a with
  | ⟨0, _⟩ => show win0_6.index t (0 : Fin 1) * 192 + 1 * l.val = l.val; rw [e]; omega

/-- The second layer's weights are held whole. -/
theorem iblk7_apply (c : Dev nD) (t : Fin cfg0.N) (l : Fin 192) (q : Fin 64) :
    (iblk m c 7 t : Vec F S192x64 .f32) (ix2 l q)
      = (m ((c : Thread nD τ).loc main_arg6) : S192x64.Idx → Elt F .f32) (ix2 l q) := by
  obtain ⟨-, -, -, -, ⟨e0, e1⟩, -⟩ := param_index t
  unfold iblk
  rw [View.read_apply]
  show V m c main_arg6 _ = m (c.tc.loc main_arg6) _
  unfold V
  refine congrArg (m (c.tc.loc main_arg6)) (funext fun a => Fin.ext ?_)
  match a with
  | ⟨0, _⟩ => show win0_7.index t (0 : Fin 2) * 192 + 1 * l.val = l.val; rw [e0]; omega
  | ⟨1, _⟩ => show win0_7.index t (1 : Fin 2) * 64 + 1 * q.val = q.val; rw [e1]; omega

/-- The second layer's bias is held whole. -/
theorem iblk8_apply (c : Dev nD) (t : Fin cfg0.N) (q : Fin 64) :
    (iblk m c 8 t : Vec F S64 .f32) (ix1 q) = (m ((c : Thread nD τ).loc main_arg7) : S64.Idx → Elt F .f32) (ix1 q) := by
  obtain ⟨-, -, -, -, -, e, -⟩ := param_index t
  unfold iblk
  rw [View.read_apply]
  show V m c main_arg7 _ = m (c.tc.loc main_arg7) _
  unfold V
  refine congrArg (m (c.tc.loc main_arg7)) (funext fun a => Fin.ext ?_)
  match a with
  | ⟨0, _⟩ => show win0_8.index t (0 : Fin 1) * 64 + 1 * q.val = q.val; rw [e]; omega

/-- The second layer norm's scale is held whole. -/
theorem iblk9_apply (c : Dev nD) (t : Fin cfg0.N) (q : Fin 64) :
    (iblk m c 9 t : Vec F S64 .f32) (ix1 q) = (m ((c : Thread nD τ).loc main_arg8) : S64.Idx → Elt F .f32) (ix1 q) := by
  obtain ⟨-, -, -, -, -, -, e, -⟩ := param_index t
  unfold iblk
  rw [View.read_apply]
  show V m c main_arg8 _ = m (c.tc.loc main_arg8) _
  unfold V
  refine congrArg (m (c.tc.loc main_arg8)) (funext fun a => Fin.ext ?_)
  match a with
  | ⟨0, _⟩ => show win0_9.index t (0 : Fin 1) * 64 + 1 * q.val = q.val; rw [e]; omega

/-- The second layer norm's shift is held whole. -/
theorem iblk10_apply (c : Dev nD) (t : Fin cfg0.N) (q : Fin 64) :
    (iblk m c 10 t : Vec F S64 .f32) (ix1 q) = (m ((c : Thread nD τ).loc main_arg9) : S64.Idx → Elt F .f32) (ix1 q) := by
  obtain ⟨-, -, -, -, -, -, -, e⟩ := param_index t
  unfold iblk
  rw [View.read_apply]
  show V m c main_arg9 _ = m (c.tc.loc main_arg9) _
  unfold V
  refine congrArg (m (c.tc.loc main_arg9)) (funext fun a => Fin.ext ?_)
  match a with
  | ⟨0, _⟩ => show win0_10.index t (0 : Fin 1) * 64 + 1 * q.val = q.val; rw [e]; omega

end Cert.KernelIdeal.Hand

end
-- ==== Proof.IdealChunk.lean ====
/-
  The output buffer after the body, read at one row.

  The body's eight stores tile the `[1, 64, 128, 64]` output buffer by eight-row chunks: the store of trip `k` writes
  rows `8 k … 8 k + 7`, and what it writes is one function — `chunk` — of the parameter arrays, the column nodes'
  block, and the eight rows `8 k …` of the edge buffer and of the row nodes' buffer. So row `r` of the buffer is row
  `r % 8` of the chunk of trip `r / 8`.
-/
import proofs.«173648_j75866302317034_2_alg».proof.Proof.IdealFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one trip stores, as a function of the parameter arrays, the column nodes' block and the trip's eight rows of
    the edge buffer (`e`) and of the row nodes' buffer (`n`). -/
def chunk (v0 : Vec F S192x192 .f32) (v5 v6 v7 : Vec F S192 .f32) (v8 : Vec F S192x64 .f32) (v10 v11 v12 : Vec F S64 .f32) (v13 : Vec F S1x128x64 .f32) (e : Vec F S1x8x128x64 .f32) (n : Vec F S1x8x64 .f32) : FVec F S1x8x128x64 .f32 :=
  k0_pay5 v7 v8 v10 v11 v12 (k0_pay6 e) (k0_pay7 (k0_pay2 v0) (k0_pay3 v0) v5 (k0_pay4 v0 v13) e n) (k0_pay8 v6)

/-- The loop makes eight trips. -/
theorem trips_eq : k0_t1_loop.trips = 8 := by decide

/-- Trip `k`'s eight rows of the edge buffer. -/
def edgeAt (arg2 : Memref sig .tc .vmem S1x64x128x64 .f32) (X2 : BufTy.Contents (Elt F) arg2.view.ty)
    (k : Fin k0_t1_loop.trips) : Vec F S1x8x128x64 .f32 :=
  View.readAt (Elt F) arg2.view (Rect.unit (s := S1x64x128x64) (k0_off1 k) S1x8x128x64.size (k0_off1_inb k)).toLoadRect X2

/-- Trip `k`'s eight rows of the row nodes' buffer. -/
def nodeAt (arg3 : Memref sig .tc .vmem S1x64x64 .f32) (X3 : BufTy.Contents (Elt F) arg3.view.ty)
    (k : Fin k0_t1_loop.trips) : Vec F S1x8x64 .f32 :=
  View.readAt (Elt F) arg3.view (Rect.unit (s := S1x64x64) (k0_off2 k) S1x8x64.size (k0_off2_inb k)).toLoadRect X3

/-- One trip writes one piece: its eight rows, holding the chunk of its loads. -/
theorem tripL_eq (𝒱 : Variants) (c : Dev nD) (bd : Option 𝒱.V) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (v0 : Vec F S192x192 .f32) (v5 v6 v7 : Vec F S192 .f32) (v8 : Vec F S192x64 .f32) (v10 v11 v12 : Vec F S64 .f32) (v13 : Vec F S1x128x64 .f32) (X2 : BufTy.Contents (Elt F) arg2.view.ty) (X3 : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v5 v6 v7 v8 v10 v11 v12 v13 X2 X3 k
      = [⟨Rect.unit (s := S1x64x128x64) (k0_off1 k) S1x8x128x64.size (k0_off1_inb k), chunk v0 v5 v6 v7 v8 v10 v11 v12 v13 (edgeAt arg2 X2 k) (nodeAt arg3 X3 k)⟩] := by
  unfold tripL_k0_t1
  unfold trip_k0_t1
  dsimp only
  unfold trip_k0_t1.sl.r trip_k0_t1.sl.r_1
  rfl

/-! ## The pieces agree with one function of the buffer's index -/

/-- Row `y 1` of the buffer lies in the chunk of trip `y 1 / 8`. -/
theorem trip_lt (y : S1x64x128x64.Idx) : (y 1).val / 8 < k0_t1_loop.trips := by
  have h : (y 1).val < 64 := (y 1).isLt
  rw [trips_eq]; omega

/-- The buffer the stores leave, as one function of its index: row `r` is row `r % 8` of the chunk of trip `r / 8`. -/
def blockFn (v0 : Vec F S192x192 .f32) (v5 v6 v7 : Vec F S192 .f32) (v8 : Vec F S192x64 .f32) (v10 v11 v12 : Vec F S64 .f32) (v13 : Vec F S1x128x64 .f32) (arg2 : Memref sig .tc .vmem S1x64x128x64 .f32) (X2 : BufTy.Contents (Elt F) arg2.view.ty)
    (arg3 : Memref sig .tc .vmem S1x64x64 .f32) (X3 : BufTy.Contents (Elt F) arg3.view.ty) (y : S1x64x128x64.Idx) : Elt F .f32 :=
  chunk v0 v5 v6 v7 v8 v10 v11 v12 v13 (edgeAt arg2 X2 ⟨(y 1).val / 8, trip_lt y⟩) (nodeAt arg3 X3 ⟨(y 1).val / 8, trip_lt y⟩)
    (ix4 (0 : Fin 1) (⟨(y 1).val % 8, Nat.mod_lt _ (by decide)⟩ : Fin 8) (⟨(y 2).val, (y 2).isLt⟩ : Fin 128)
      (⟨(y 3).val, (y 3).isLt⟩ : Fin 64))

/-- A chunk read at equal trips and equal indices. -/
theorem chunk_congr (v0 : Vec F S192x192 .f32) (v5 v6 v7 : Vec F S192 .f32) (v8 : Vec F S192x64 .f32) (v10 v11 v12 : Vec F S64 .f32) (v13 : Vec F S1x128x64 .f32) (arg2 : Memref sig .tc .vmem S1x64x128x64 .f32) (X2 : BufTy.Contents (Elt F) arg2.view.ty)
    (arg3 : Memref sig .tc .vmem S1x64x64 .f32) (X3 : BufTy.Contents (Elt F) arg3.view.ty)
    (k k' : Fin k0_t1_loop.trips) (hk : k = k') (x x' : S1x8x128x64.Idx) (hx : x = x') :
    chunk v0 v5 v6 v7 v8 v10 v11 v12 v13 (edgeAt arg2 X2 k) (nodeAt arg3 X3 k) x = chunk v0 v5 v6 v7 v8 v10 v11 v12 v13 (edgeAt arg2 X2 k') (nodeAt arg3 X3 k') x' := by
  subst hk; subst hx; rfl

/-- Trip `k`'s piece, at its local index `x`, is the buffer's function at the index the piece's rectangle gives `x`:
    row `8 k + x 1`, whose trip is `k` and whose local row is `x 1`. -/
theorem piece_eq (v0 : Vec F S192x192 .f32) (v5 v6 v7 : Vec F S192 .f32) (v8 : Vec F S192x64 .f32) (v10 v11 v12 : Vec F S64 .f32) (v13 : Vec F S1x128x64 .f32) (arg2 : Memref sig .tc .vmem S1x64x128x64 .f32) (X2 : BufTy.Contents (Elt F) arg2.view.ty)
    (arg3 : Memref sig .tc .vmem S1x64x64 .f32) (X3 : BufTy.Contents (Elt F) arg3.view.ty)
    (k : Fin k0_t1_loop.trips) (x : S1x8x128x64.Idx) :
    chunk v0 v5 v6 v7 v8 v10 v11 v12 v13 (edgeAt arg2 X2 k) (nodeAt arg3 X3 k) x
      = blockFn v0 v5 v6 v7 v8 v10 v11 v12 v13 arg2 X2 arg3 X3 ((Rect.unit (s := S1x64x128x64) (k0_off1 k) S1x8x128x64.size (k0_off1_inb k)).emb x) := by
  have hk : k.val < 8 := Nat.lt_of_lt_of_le k.isLt trips_eq.le
  have e := k0_off1_eq k
  have h0 : (x 0).val = 0 := by have : (x 0).val < 1 := (x 0).isLt; omega
  have hx1 : (x 1).val < 8 := (x 1).isLt
  have h1 : (((Rect.unit (s := S1x64x128x64) (k0_off1 k) S1x8x128x64.size (k0_off1_inb k)).emb x 1 : Fin _) : Nat)
      = 8 * k.val + (x 1).val := by
    show k0_off1 k 1 + 1 * (x 1).val = _
    rw [e]; show 8 * k.val + 1 * (x 1).val = _; omega
  have h2 : (((Rect.unit (s := S1x64x128x64) (k0_off1 k) S1x8x128x64.size (k0_off1_inb k)).emb x 2 : Fin _) : Nat)
      = (x 2).val := by
    show k0_off1 k 2 + 1 * (x 2).val = _
    rw [e]; show 0 + 1 * (x 2).val = _; omega
  have h3 : (((Rect.unit (s := S1x64x128x64) (k0_off1 k) S1x8x128x64.size (k0_off1_inb k)).emb x 3 : Fin _) : Nat)
      = (x 3).val := by
    show k0_off1 k 3 + 1 * (x 3).val = _
    rw [e]; show 0 + 1 * (x 3).val = _; omega
  unfold blockFn
  refine chunk_congr v0 v5 v6 v7 v8 v10 v11 v12 v13 arg2 X2 arg3 X3 k _ (Fin.ext ?_) x _ (funext fun a => Fin.ext ?_)
  · show k.val = _ / 8
    rw [h1]; omega
  · match a with
    | ⟨0, _⟩ => exact h0
    | ⟨1, _⟩ => show (x 1).val = _ % 8; rw [h1]; omega
    | ⟨2, _⟩ => exact h2.symm
    | ⟨3, _⟩ => exact h3.symm

/-- Every piece of the trips before `n` agrees with the buffer's function. -/
theorem pieces_spec (𝒱 : Variants) (c : Dev nD) (bd : Option 𝒱.V) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (v0 : Vec F S192x192 .f32) (v5 v6 v7 : Vec F S192 .f32) (v8 : Vec F S192x64 .f32) (v10 v11 v12 : Vec F S64 .f32) (v13 : Vec F S1x128x64 .f32) (X2 : BufTy.Contents (Elt F) arg2.view.ty) (X3 : BufTy.Contents (Elt F) arg3.view.ty) :
    ∀ n, n ≤ k0_t1_loop.trips → ∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 v0 v5 v6 v7 v8 v10 v11 v12 v13 X2 X3 n,
      ∀ x : p.1.shape.Idx, p.2 x = blockFn v0 v5 v6 v7 v8 v10 v11 v12 v13 arg2 X2 arg3 X3 (p.1.emb x)
  | 0, _ => fun p hp => absurd hp (by rw [pb_k0_t1]; exact List.not_mem_nil)
  | n + 1, hn => fun p hp x => by
    rw [show pb_k0_t1 (F := F) 𝒱 c bd i arg2 harg2 arg3 harg3 arg4 harg4 arg5 harg5 arg6 harg6 arg7 harg7 arg8 harg8 arg9 harg9 arg10 harg10 arg11 harg11 arg12 harg12 arg13 harg13 v0 v5 v6 v7 v8 v10 v11 v12 v13 X2 X3 (n + 1) = _ from
      pb_k0_t1_succ 𝒱 c bd i arg2 harg2 arg3 harg3 arg4 harg4 arg5 harg5 arg6 harg6 arg7 harg7 arg8 harg8 arg9 harg9 arg10 harg10 arg11 harg11 arg12 harg12 arg13 harg13 v0 v5 v6 v7 v8 v10 v11 v12 v13 X2 X3 ⟨n, hn⟩, tripL_eq] at hp
    rcases List.mem_append.mp hp with h | h
    · obtain rfl := List.mem_singleton.mp h
      exact piece_eq v0 v5 v6 v7 v8 v10 v11 v12 v13 arg2 X2 arg3 X3 ⟨n, hn⟩ x
    · exact pieces_spec 𝒱 c bd i arg2 harg2 arg3 harg3 arg4 harg4 arg5 harg5 arg6 harg6 arg7 harg7 arg8 harg8 arg9 harg9 arg10 harg10 arg11 harg11 arg12 harg12 arg13 harg13 v0 v5 v6 v7 v8 v10 v11 v12 v13 X2 X3 n (Nat.le_of_succ_le hn) p h x

/-! ## Loads of a whole buffer, and of a trip's eight rows -/

theorem zero_off1 : (![0] : Fin 1 → Nat) = fun _ => 0 := funext fun a => by match a with | ⟨0, _⟩ => rfl
theorem zero_off2 : (![0, 0] : Fin 2 → Nat) = fun _ => 0 := funext fun a => by match a with | ⟨0, _⟩ => rfl | ⟨1, _⟩ => rfl
theorem zero_off3 : (![0, 0, 0] : Fin 3 → Nat) = fun _ => 0 :=
  funext fun a => by match a with | ⟨0, _⟩ => rfl | ⟨1, _⟩ => rfl | ⟨2, _⟩ => rfl

/-- A load of the whole of a whole buffer reads its contents. -/
theorem readAt_whole {S : Shape} {e : EltTy} (M : Memref sig .tc .vmem S e) (hM : M.IsWhole) (X : S.Idx → Elt F e)
    {off : Fin S.rank → Nat} (h : off = fun _ => 0) (inb : ∀ a, off a + S.size a ≤ S.size a) :
    View.readAt (Elt F) M.view (Rect.unit off S.size inb).toLoadRect (hM.unread X) = X := by
  rw [View.readAt_eq_ld, hM.read_unread]; exact View.ld_unit_zero h inb X

/-- Row `x 1` of trip `k` is row `8 k + x 1` of the buffer. -/
theorem row_lt (k : Fin k0_t1_loop.trips) (x1 : Fin 8) : 8 * k.val + x1.val < 64 := by
  have hk : k.val < 8 := Nat.lt_of_lt_of_le k.isLt trips_eq.le
  have := x1.isLt; omega

/-- Trip `k`'s load of the edge buffer: rows `8 k …` of its contents. -/
theorem edgeAt_unread (arg2 : Memref sig .tc .vmem S1x64x128x64 .f32) (harg2 : arg2.IsWhole) (x2 : Vec F S1x64x128x64 .f32)
    (k : Fin k0_t1_loop.trips) :
    edgeAt arg2 (harg2.unread x2) k
      = fun x => x2 (ix4 (0 : Fin 1) (⟨8 * k.val + (x 1).val, row_lt k (x 1)⟩ : Fin 64) (x 2) (x 3)) := by
  funext x
  have e := k0_off1_eq k
  unfold edgeAt
  rw [View.readAt_eq_ld, harg2.read_unread]
  refine congrArg x2 (funext fun a => Fin.ext ?_)
  match a with
  | ⟨0, _⟩ =>
    have h0 : (x 0).val = 0 := by have : (x 0).val < 1 := (x 0).isLt; omega
    show k0_off1 k 0 + 1 * (x 0).val = 0
    rw [e, h0]; rfl
  | ⟨1, _⟩ => show k0_off1 k 1 + 1 * (x 1).val = 8 * k.val + (x 1).val; rw [e]; show 8 * k.val + 1 * (x 1).val = _; omega
  | ⟨2, _⟩ => show k0_off1 k 2 + 1 * (x 2).val = (x 2).val; rw [e]; show 0 + 1 * (x 2).val = _; omega
  | ⟨3, _⟩ => show k0_off1 k 3 + 1 * (x 3).val = (x 3).val; rw [e]; show 0 + 1 * (x 3).val = _; omega

/-- Trip `k`'s load of the row nodes' buffer: rows `8 k …` of its contents. -/
theorem nodeAt_unread (arg3 : Memref sig .tc .vmem S1x64x64 .f32) (harg3 : arg3.IsWhole) (x3 : Vec F S1x64x64 .f32)
    (k : Fin k0_t1_loop.trips) :
    nodeAt arg3 (harg3.unread x3) k
      = fun x => x3 (ix3 (0 : Fin 1) (⟨8 * k.val + (x 1).val, row_lt k (x 1)⟩ : Fin 64) (x 2)) := by
  funext x
  have e := k0_off2_eq k
  unfold nodeAt
  rw [View.readAt_eq_ld, harg3.read_unread]
  refine congrArg x3 (funext fun a => Fin.ext ?_)
  match a with
  | ⟨0, _⟩ =>
    have h0 : (x 0).val = 0 := by have : (x 0).val < 1 := (x 0).isLt; omega
    show k0_off2 k 0 + 1 * (x 0).val = 0
    rw [e, h0]; rfl
  | ⟨1, _⟩ => show k0_off2 k 1 + 1 * (x 1).val = 8 * k.val + (x 1).val; rw [e]; show 8 * k.val + 1 * (x 1).val = _; omega
  | ⟨2, _⟩ => show k0_off2 k 2 + 1 * (x 2).val = (x 2).val; rw [e]; show 0 + 1 * (x 2).val = _; omega

/-! ## The buffer after the body -/

/-- The run's pieces are the loop's, over the buffers' contents. -/
theorem kernelRun_pieces (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) :
    (kernelRun (F := F) c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12).1
      = pb_k0_t1 (F := F) Variants.none c none i arg2 harg2 arg3 harg3 arg4 harg4 arg5 harg5 arg6 harg6 arg7 harg7 arg8 harg8 arg9 harg9 arg10 harg10 arg11 harg11 arg12 harg12 arg13 harg13 x5 x6 x7 x8 x9 x10 x11 x12 x4
          (harg2.unread x2) (harg3.unread x3) k0_t1_loop.trips := by
  unfold kernelRun
  dsimp only
  rw [readAt_whole arg5 harg5 x5 zero_off2, readAt_whole arg6 harg6 x6 zero_off1, readAt_whole arg7 harg7 x7 zero_off1,
    readAt_whole arg8 harg8 x8 zero_off1, readAt_whole arg9 harg9 x9 zero_off2, readAt_whole arg10 harg10 x10 zero_off1,
    readAt_whole arg11 harg11 x11 zero_off1, readAt_whole arg12 harg12 x12 zero_off1,
    readAt_whole arg4 harg4 x4 zero_off3] <;> rfl

/-- What the run leaves in the output's buffer, at row `r`: row `r % 8` of the chunk of rows `8 (r / 8) …` of the edge
    buffer and of the row nodes' buffer. -/
theorem outOf_apply (c : Dev nD) (i : grid0.Coords) (arg2 : Memref sig .tc .vmem S1x64x128x64 .f32) (harg2 : arg2.IsWhole) (arg3 : Memref sig .tc .vmem S1x64x64 .f32) (harg3 : arg3.IsWhole) (arg4 : Memref sig .tc .vmem S1x128x64 .f32) (harg4 : arg4.IsWhole) (arg5 : Memref sig .tc .vmem S192x192 .f32) (harg5 : arg5.IsWhole) (arg6 : Memref sig .tc .vmem S192 .f32) (harg6 : arg6.IsWhole) (arg7 : Memref sig .tc .vmem S192 .f32) (harg7 : arg7.IsWhole) (arg8 : Memref sig .tc .vmem S192 .f32) (harg8 : arg8.IsWhole) (arg9 : Memref sig .tc .vmem S192x64 .f32) (harg9 : arg9.IsWhole) (arg10 : Memref sig .tc .vmem S64 .f32) (harg10 : arg10.IsWhole) (arg11 : Memref sig .tc .vmem S64 .f32) (harg11 : arg11.IsWhole) (arg12 : Memref sig .tc .vmem S64 .f32) (harg12 : arg12.IsWhole) (arg13 : Memref sig .tc .vmem S1x64x128x64 .f32) (harg13 : arg13.IsWhole)
    (x2 : Vec F S1x64x128x64 .f32) (x3 : Vec F S1x64x64 .f32) (x4 : Vec F S1x128x64 .f32) (x5 : Vec F S192x192 .f32) (x6 : Vec F S192 .f32) (x7 : Vec F S192 .f32) (x8 : Vec F S192 .f32) (x9 : Vec F S192x64 .f32) (x10 : Vec F S64 .f32) (x11 : Vec F S64 .f32) (x12 : Vec F S64 .f32) (r : Fin 64) (j : Fin 128) (q : Fin 64) :
    outOf (F := F) c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12 (ix4 (0 : Fin 1) r j q)
      = chunk x5 x6 x7 x8 x9 x10 x11 x12 x4
          (fun x => x2 (ix4 (0 : Fin 1) (⟨8 * (r.val / 8) + (x 1).val, by
            have h1 : (x 1).val < 8 := (x 1).isLt; have := r.isLt; omega⟩ : Fin 64) (x 2) (x 3)))
          (fun x => x3 (ix3 (0 : Fin 1) (⟨8 * (r.val / 8) + (x 1).val, by
            have h1 : (x 1).val < 8 := (x 1).isLt; have := r.isLt; omega⟩ : Fin 64) (x 2)))
          (ix4 (0 : Fin 1) (⟨r.val % 8, Nat.mod_lt _ (by decide)⟩ : Fin 8) j q) := by
  have hc := cover_out (F := F) c i arg2 harg2 arg3 harg3 arg4 harg4 arg5 harg5 arg6 harg6 arg7 harg7 arg8 harg8 arg9 harg9 arg10 harg10 arg11 harg11 arg12 harg12 arg13 harg13 x2 x3 x4 x5 x6 x7 x8 x9 x10 x11 x12 (ix4 (0 : Fin 1) r j q)
  unfold outOf
  rw [View.read_writes_apply_eq_canon _ _ _ _ hc]
  rw [kernelRun_pieces] at hc ⊢
  refine (View.canon_apply_of_pieces (blockFn x5 x6 x7 x8 x9 x10 x11 x12 x4 arg2 (harg2.unread x2) arg3 (harg3.unread x3)) _
    (pieces_spec Variants.none c none i arg2 harg2 arg3 harg3 arg4 harg4 arg5 harg5 arg6 harg6 arg7 harg7 arg8 harg8 arg9 harg9 arg10 harg10 arg11 harg11 arg12 harg12 arg13 harg13 x5 x6 x7 x8 x9 x10 x11 x12 x4 (harg2.unread x2) (harg3.unread x3)
      k0_t1_loop.trips le_rfl) _ hc).trans ?_
  unfold blockFn
  rw [edgeAt_unread, nodeAt_unread]

/-- The output's staging buffer after the body at point `t`, at row `r`. -/
theorem outAt_apply (c : Dev nD) (t : Fin cfg0.N) (r : Fin 64) (j : Fin 128) (q : Fin 64) :
    outAt m c t (ix4 (0 : Fin 1) r j q)
      = chunk (iblk m c 3 t) (iblk m c 4 t) (iblk m c 5 t) (iblk m c 6 t) (iblk m c 7 t) (iblk m c 8 t) (iblk m c 9 t)
          (iblk m c 10 t) (iblk m c 2 t)
          (fun x => iblk m c 0 t (ix4 (0 : Fin 1) (⟨8 * (r.val / 8) + (x 1).val, by
            have h1 : (x 1).val < 8 := (x 1).isLt; have := r.isLt; omega⟩ : Fin 64) (x 2) (x 3)))
          (fun x => iblk m c 1 t (ix3 (0 : Fin 1) (⟨8 * (r.val / 8) + (x 1).val, by
            have h1 : (x 1).val < 8 := (x 1).isLt; have := r.isLt; omega⟩ : Fin 64) (x 2)))
          (ix4 (0 : Fin 1) (⟨r.val % 8, Nat.mod_lt _ (by decide)⟩ : Fin 8) j q) := by
  unfold outAt
  exact outOf_apply c (grid0.coords t) (ms_0 t) (hs_0 t) (ms_1 t) (hs_1 t) (ms_2 t) (hs_2 t) (ms_3 t) (hs_3 t) (ms_4 t) (hs_4 t)
    (ms_5 t) (hs_5 t) (ms_6 t) (hs_6 t) (ms_7 t) (hs_7 t) (ms_8 t) (hs_8 t) (ms_9 t) (hs_9 t) (ms_10 t) (hs_10 t) (ms_11 t) (hs_11 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) r j q

end Cert.KernelIdeal.Hand

end
-- ==== Proof.RowSpec.lean ====
/-
  One row of the edge update, as functions on the extended reals.

  For a batch element b and a pair of nodes (i, j) the update reads three 64-vectors — the edge features e = edge[b,i,j,·],
  the features n1 = node[b,j,·] of the column node and n2 = node[b,i,·] of the row node — and produces a 64-vector:

    h      = [n1 | n2 | e] · W1 + b1                      (a 192-vector)
    a      = max (LayerNorm_192 (h; g1, beta1)) 0
    out    = LayerNorm_64 (a · W2 + b2 + e; g2, beta2)

  The first line is stated twice: `hlinR` contracts the concatenated 192-vector against W1 in one sum; `hlinK` adds the
  three 64-wide partial products (edge rows 128..191 of W1 first, then rows 0..63, then rows 64..127). Everything after
  the first line is `rowOut`, a function of h and e alone: the two first lines are compared without it.
  A layer norm divides by the literal row length and adds the literal epsilon, both kept as the f32 words the programs
  carry.
-/
import Idealize.ShloMosaic.PureOps.Ideal
import Idealize.ShloMosaic.Lib.ValueIdx

noncomputable section

open scoped BigOperators

namespace Cert.EdgeRow

open Idealize.ShloMosaic

/-- The f32 word of 192, the length of a hidden row. -/
abbrev c192 : EReal := Ideal.ofBits .f32 0x43400000#32
/-- The f32 word of 64, the length of an output row. -/
abbrev c64 : EReal := Ideal.ofBits .f32 0x42800000#32
/-- The f32 word nearest 1e-5, the layer norms' epsilon. -/
abbrev eps : EReal := Ideal.ofBits .f32 0x3727C5AC#32
/-- The f32 zero word. -/
abbrev zero : EReal := Ideal.ofBits .f32 0x00000000#32

/-- The mean of a row: its sum divided by the word `c` of its length. -/
def mean {n : ℕ} (c : EReal) (x : Fin n → EReal) : EReal := Ideal.div (∑ k, x k) c

/-- Layer norm of a row `x` at position `l`: centre, scale by the reciprocal root of the variance plus epsilon, then the
    affine map `g`, `beta`. -/
def lnRow {n : ℕ} (c : EReal) (x g beta : Fin n → EReal) (l : Fin n) : EReal :=
  (x l - mean c x) * Ideal.rsqrt (mean c (fun k => (x k - mean c x) * (x k - mean c x)) + eps) * g l + beta l

/-- The first layer as three 64-wide partial products: the edge vector against rows 128..191 of `W1`, the column node's
    against rows 0..63, the row node's against rows 64..127, then the bias. -/
def hlinK (W1 : Fin 192 → Fin 192 → EReal) (b1 : Fin 192 → EReal) (e n1 n2 : Fin 64 → EReal) (l : Fin 192) : EReal :=
  (∑ k : Fin 64, e k * W1 ⟨128 + k.val, by have := k.isLt; omega⟩ l)
    + (∑ k : Fin 64, n1 k * W1 ⟨k.val, by have := k.isLt; omega⟩ l)
    + (∑ k : Fin 64, n2 k * W1 ⟨64 + k.val, by have := k.isLt; omega⟩ l)
    + b1 l

/-- The concatenated 192-vector [n1 | n2 | e]. -/
def xcat (e n1 n2 : Fin 64 → EReal) (k : Fin 192) : EReal :=
  if h : k.val < 64 then n1 ⟨k.val, h⟩
  else if h2 : k.val < 128 then n2 ⟨k.val - 64, by omega⟩
  else e ⟨k.val - 128, by have := k.isLt; omega⟩

/-- The first layer as one contraction of the concatenated vector against `W1`, then the bias. -/
def hlinR (W1 : Fin 192 → Fin 192 → EReal) (b1 : Fin 192 → EReal) (e n1 n2 : Fin 64 → EReal) (l : Fin 192) : EReal :=
  (∑ k : Fin 192, xcat e n1 n2 k * W1 k l) + b1 l

/-- Everything after the first layer: layer norm over 192, the positive part, the second layer with its bias and the
    residual edge vector, layer norm over 64. -/
def rowOut (g1 beta1 : Fin 192 → EReal) (W2 : Fin 192 → Fin 64 → EReal) (b2 g2 beta2 : Fin 64 → EReal)
    (hlin : Fin 192 → EReal) (e : Fin 64 → EReal) : Fin 64 → EReal :=
  lnRow c64 (fun q => (∑ l : Fin 192, max (lnRow c192 hlin g1 beta1 l) zero * W2 l q) + b2 q + e q) g2 beta2

end Cert.EdgeRow

end
-- ==== Proof.LibIndexRead.lean ====
/-
  Layout operations, lane sums and plain matrix products of the ideal values, read at an index given by coordinates.

  Each lemma says what one operation of a vector program is at one index: a shape cast that merges or splits the two
  leading axes of a rank-3 array (row `i * b + j` of the merged array is row `(i, j)` of the split one), a shape cast
  that inserts unit axes, a broadcast along the unit axes of its operand, a sum over the last axis as a sum over that
  axis's coordinate, and the product of an `M × K` by a `K × N` matrix into a zero accumulator as the sum over the
  contracted coordinate.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.IndexRead

open Idealize.ShloMosaic Idealize.ShloMosaic.ValueIdx

variable {α : Type}

/-! ## Shape casts that merge or split the two leading axes -/

/-- An `[a, b, c]` array cast to `[n, c]` reads, at row `ρ = i * b + j`, the operand's row `(i, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (ρ : Fin n)
    (hρ : ρ.val = i.val * b + j.val) :
    shapeCast ⟨2, ![n, c]⟩ x h (ix2 ρ k) = x (ix3 i j k) :=
  shapeCast_apply x h _ _ (by
    rw [Shape.rowMajor_val_three, Shape.rowMajor_val_two]
    show (i.val * b + j.val) * c + k.val = ρ.val * c + k.val
    rw [hρ])

/-- An `[n, c]` array cast to `[a, b, c]` reads, at `(i, j, k)`, the operand's row `ρ = i * b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (ρ : Fin n)
    (hρ : ρ.val = i.val * b + j.val) :
    shapeCast ⟨3, ![a, b, c]⟩ x h (ix3 i j k) = x (ix2 ρ k) :=
  shapeCast_apply x h _ _ (by
    rw [Shape.rowMajor_val_three, Shape.rowMajor_val_two]
    show ρ.val * c + k.val = (i.val * b + j.val) * c + k.val
    rw [hρ])

/-! ## Shape casts that insert unit axes -/

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` array cast to `[1, 1, c]` reads, at `(u, u', k)`, the operand at `k`. -/
theorem shapeCast_c_11c_apply {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    simp only [hu, hu', Nat.zero_mul, Nat.zero_add, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts along unit axes -/

/-- A coordinate below `n` is `0` when `n = 1` and itself otherwise: the coordinate a broadcast reads on an axis. -/
theorem bcast_coord {n : ℕ} (k : Fin n) : k.val = if n = 1 then 0 else k.val := by
  split
  · have := k.isLt; omega
  · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ => exact bcast_coord j
  | ⟨2, _⟩ => exact bcast_coord k

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ => exact bcast_coord i
  | ⟨1, _⟩ => rfl
  | ⟨2, _⟩ => exact bcast_coord k

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ => exact bcast_coord k

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ => exact bcast_coord i
  | ⟨1, _⟩ => exact bcast_coord j
  | ⟨2, _⟩ => rfl

/-- An `[a, 1]` array broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ => exact bcast_coord i
  | ⟨1, _⟩ => rfl

/-! ## A sum over the last axis -/

/-- The sum over the last axis of an `[a, b, c]` array, at `(i, j)`, is the sum over `k` of the array at `(i, j, k)`. -/
theorem multiReduction_add_abc_ab {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, at `i`, is the sum over `k` of the array at `(i, k)`. -/
theorem multiReduction_add_ab_a {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-! ## A plain matrix product into a zero accumulator -/

/-- The product of an `M × K` by a `K × N` matrix into the zero splat, at `(i, j)`, is `∑ k, lhs (i, k) * rhs (k, j)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant (F := Ideal) ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun ax => Fin.ext (by
      match ax with
      | ⟨0, _⟩ => exact ((DotDims.plain M K N).rhsIdx_val_of_single rfl _ _).trans hk
      | ⟨1, _⟩ => rfl)
  rw [el, er]

end Cert.IndexRead

end
-- ==== Proof.KernelRow.lean ====
/-
  One chunk of the edge update, read at one row.

  A trip of the kernel's loop takes an eight-row chunk of the edge block, the matching eight row nodes and the whole
  block of column nodes, and stores one array of the chunk's shape. Here that array is read at the index
  `(0, r, j, q)`: it is the row function `Cert.EdgeRow.rowOut` of the first layer `Cert.EdgeRow.hlinK` at the three
  64-vectors the index picks out — the edge vector `(r, j)` of the chunk, column node `j` and row node `r`.

  The stored array is a composition of five stages, each named below and read at an index on its own: the first layer
  (three partial products and the bias), the normalisation of its 192-wide rows, the affine map and positive part,
  the second layer with the residual edge row, and the normalisation of the 64-wide rows with its affine map. The two
  payload definitions of the kernel are these compositions by unfolding.
-/
import proofs.«173648_j75866302317034_2_alg».proof.Proof.Gen.KernelIdeal.Skeleton
import proofs.«173648_j75866302317034_2_alg».proof.Proof.RowSpec
import proofs.«173648_j75866302317034_2_alg».proof.Proof.LibIndexRead

noncomputable section

open scoped BigOperators

namespace Cert.KernelIdeal.KernelRow

open Idealize.ShloMosaic Idealize.ShloMosaic.ValueIdx Cert.KernelIdeal Cert.IndexRead Cert.EdgeRow

/-! ## The weights' three row blocks and the small casts -/

/-- Rows 64..127 of the first layer's weights. -/
theorem pay2_apply (v0 : Vec Ideal S192x192 .f32) (k : Fin 64) (l : Fin 192) :
    Gen.k0_pay2 (F := Ideal) v0 (ix2 k l) = v0 (ix2 ⟨64 + k.val, by have := k.isLt; omega⟩ l) := by
  unfold Gen.k0_pay2 Gen.k0_pay1
  exact slice2_axis0_apply 64 _ _ k l ⟨64 + k.val, by have := k.isLt; omega⟩ rfl

/-- Rows 128..191 of the first layer's weights. -/
theorem pay3_apply (v0 : Vec Ideal S192x192 .f32) (k : Fin 64) (l : Fin 192) :
    Gen.k0_pay3 (F := Ideal) v0 (ix2 k l) = v0 (ix2 ⟨128 + k.val, by have := k.isLt; omega⟩ l) := by
  unfold Gen.k0_pay3 Gen.k0_pay1
  exact slice2_axis0_apply 128 _ _ k l ⟨128 + k.val, by have := k.isLt; omega⟩ rfl

/-- The column nodes against rows 0..63 of the weights. -/
theorem pay4_apply (v0 : Vec Ideal S192x192 .f32) (v13 : Vec Ideal S1x128x64 .f32) (j : Fin 128) (l : Fin 192) :
    Gen.k0_pay4 (F := Ideal) v0 v13 (ix2 j l)
      = ∑ k : Fin 64, v13 (ix3 (0 : Fin 1) j k) * v0 (ix2 ⟨k.val, by have := k.isLt; omega⟩ l) := by
  unfold Gen.k0_pay4 Gen.k0_pay1
  refine (matmul_plain_zero_apply none _ _ j l).trans ?_
  refine Finset.sum_congr rfl fun k _ => ?_
  exact congrArg₂ (· * ·) (shapeCast_1ab_ab_apply v13 _ j k)
    (slice2_axis0_apply 0 _ _ k l ⟨k.val, by have := k.isLt; omega⟩ (Nat.zero_add _).symm)

/-- The chunk's edge rows, flattened: row `r * 128 + j` is edge row `(r, j)`. -/
theorem pay6_apply (v23 : Vec Ideal S1x8x128x64 .f32) (r : Fin 8) (j : Fin 128) (k : Fin 64) (ρ : Fin 1024)
    (hρ : ρ.val = r.val * 128 + j.val) :
    Gen.k0_pay6 (F := Ideal) v23 (ix2 ρ k) = v23 (ix4 (0 : Fin 1) r j k) := by
  unfold Gen.k0_pay6
  refine (shapeCast_abc_nc_apply _ _ r j k ρ hρ).trans ?_
  exact shapeCast_1abc_abc_apply v23 _ r j k

/-- The first norm's scale as a `[1, 1, 192]` array. -/
theorem pay8_apply (v6 : Vec Ideal S192 .f32) (u u' : Fin 1) (l : Fin 192) :
    Gen.k0_pay8 (F := Ideal) v6 (ix3 u u' l) = v6 (ix1 l) := by
  unfold Gen.k0_pay8
  exact shapeCast_c_11c_apply v6 _ u u' l

/-! ## The first layer on a chunk -/

/-- The first layer on a chunk: the edge rows against the weights' last row block, plus the column nodes' product
    (the same for every row of the chunk), plus the row nodes' product (the same along a row), plus the bias. -/
def hidden (v3 v4 : FVec Ideal S64x192 .bf16) (v5 : Vec Ideal S192 .f32) (v16 : FVec Ideal S128x192 .f32)
    (v23 : Vec Ideal S1x8x128x64 .f32) (v26 : Vec Ideal S1x8x64 .f32) : FVec Ideal S8x128x192 .f32 :=
  addf (addf (addf
    (shapeCast S8x128x192
      (matmul dot_S1024x64_S64x192_S1024x192_1_0_0_1_n_n none (truncf .bf16 (Gen.k0_pay6 v23) Gen.bitsLt_bf16_f32) v4
        (constant S1024x192 .f32 0x00000000#32)) Gen.shapeCasts_S1024x192_S8x128x192)
    (broadcastTo S8x128x192 (shapeCast S1x128x192 v16 Gen.shapeCasts_S128x192_S1x128x192) Gen.broadcasts_S1x128x192_S8x128x192))
    (broadcastTo S8x128x192
      (shapeCast S8x1x192
        (matmul dot_S8x64_S64x192_S8x192_1_0_0_1_n_n none
          (truncf .bf16 (shapeCast S8x64 v26 Gen.shapeCasts_S1x8x64_S8x64) Gen.bitsLt_bf16_f32) v3
          (constant S8x192 .f32 0x00000000#32)) Gen.shapeCasts_S8x192_S8x1x192) Gen.broadcasts_S8x1x192_S8x128x192))
    (broadcastTo S8x128x192 (shapeCast S1x1x192 v5 Gen.shapeCasts_S192_S1x1x192) Gen.broadcasts_S1x1x192_S8x128x192)

/-- The first layer at `(r, j, l)`: three 64-wide sums and the bias. -/
theorem hidden_apply (v3 v4 : FVec Ideal S64x192 .bf16) (v5 : Vec Ideal S192 .f32) (v16 : FVec Ideal S128x192 .f32)
    (v23 : Vec Ideal S1x8x128x64 .f32) (v26 : Vec Ideal S1x8x64 .f32) (r : Fin 8) (j : Fin 128) (l : Fin 192) :
    hidden v3 v4 v5 v16 v23 v26 (ix3 r j l)
      = (∑ k : Fin 64, v23 (ix4 (0 : Fin 1) r j k) * v4 (ix2 k l)) + v16 (ix2 j l)
          + (∑ k : Fin 64, v26 (ix3 (0 : Fin 1) r k) * v3 (ix2 k l)) + v5 (ix1 l) := by
  have hρ : r.val * 128 + j.val < 1024 := by have := r.isLt; have := j.isLt; omega
  unfold hidden
  refine congrArg₂ (· + ·) (congrArg₂ (· + ·) (congrArg₂ (· + ·) ?_ ?_) ?_) ?_
  · refine (shapeCast_nc_abc_apply _ _ r j l ⟨r.val * 128 + j.val, hρ⟩ rfl).trans ?_
    refine (matmul_plain_zero_apply none _ _ _ l).trans ?_
    exact Finset.sum_congr rfl fun k _ => congrArg (· * v4 (ix2 k l)) (pay6_apply v23 r j k _ rfl)
  · refine (broadcastTo_1bc_abc_apply _ _ r j l).trans ?_
    exact shapeCast_ab_1ab_apply v16 _ 0 j l
  · refine (broadcastTo_a1c_abc_apply _ _ r j l).trans ?_
    refine (shapeCast_ac_a1c_apply _ _ r 0 l).trans ?_
    refine (matmul_plain_zero_apply none _ _ r l).trans ?_
    exact Finset.sum_congr rfl fun k _ => congrArg (· * v3 (ix2 k l)) (shapeCast_1ab_ab_apply v26 _ r k)
  · refine (broadcastTo_11c_abc_apply _ _ r j l).trans ?_
    exact shapeCast_c_11c_apply v5 _ 0 0 l

/-! ## Normalising the 192-wide rows -/

/-- The row means of an `[8, 128, 192]` array, one per row, divided by the word `c`. -/
def meanCol192 (c : BitVec 32) (X : FVec Ideal S8x128x192 .f32) : FVec Ideal S8x128x1 .f32 :=
  divf (shapeCast S8x128x1 (multiReduction .add [2] S8x128 X 0x00000000#32 Gen.reduces_S8x128x192_S8x128 (.inl rfl) rfl)
    Gen.shapeCasts_S8x128_S8x128x1) (broadcast S8x128x1 (Scalar.ofBits .f32 c))

theorem meanCol192_apply (c : BitVec 32) (X : FVec Ideal S8x128x192 .f32) (r : Fin 8) (j : Fin 128) (u : Fin 1)
    (x : Fin 192 → EReal) (hx : ∀ k, X (ix3 r j k) = x k) :
    meanCol192 c X (ix3 r j u) = mean (Ideal.ofBits .f32 c) x := by
  unfold meanCol192 mean
  refine congrArg (fun t => Ideal.div t (Ideal.ofBits .f32 c)) ?_
  refine (shapeCast_ab_ab1_apply _ _ r j u).trans ?_
  refine (multiReduction_add_abc_ab X _ _ _ _ r j).trans ?_
  exact Finset.sum_congr rfl fun k _ => hx k

/-- The rows with their means taken off. -/
def centred192 (X : FVec Ideal S8x128x192 .f32) : FVec Ideal S8x128x192 .f32 :=
  subf X (broadcastTo S8x128x192 (meanCol192 0x43400000#32 X) Gen.broadcasts_S8x128x1_S8x128x192)

theorem centred192_apply (X : FVec Ideal S8x128x192 .f32) (r : Fin 8) (j : Fin 128) (l : Fin 192)
    (x : Fin 192 → EReal) (hx : ∀ k, X (ix3 r j k) = x k) :
    centred192 X (ix3 r j l) = x l - mean c192 x := by
  unfold centred192
  refine congrArg₂ (· - ·) (hx l) ?_
  refine (broadcastTo_ab1_abc_apply _ _ r j l).trans ?_
  exact meanCol192_apply _ X r j 0 x hx

/-- The reciprocal root of each row's variance plus epsilon. -/
def rstd192 (X : FVec Ideal S8x128x192 .f32) : FVec Ideal S8x128x1 .f32 :=
  rsqrt (addf (meanCol192 0x43400000#32 (mulf (centred192 X) (centred192 X)))
    (broadcast S8x128x1 (Scalar.ofBits .f32 0x3727C5AC#32)))

theorem rstd192_apply (X : FVec Ideal S8x128x192 .f32) (r : Fin 8) (j : Fin 128) (u : Fin 1)
    (x : Fin 192 → EReal) (hx : ∀ k, X (ix3 r j k) = x k) :
    rstd192 X (ix3 r j u) = Ideal.rsqrt (mean c192 (fun k => (x k - mean c192 x) * (x k - mean c192 x)) + eps) := by
  unfold rstd192
  refine congrArg (fun t => Ideal.rsqrt (t + eps)) ?_
  exact meanCol192_apply _ _ r j u _ fun k =>
    congrArg₂ (· * ·) (centred192_apply X r j k x hx) (centred192_apply X r j k x hx)

/-- The normalised rows, before the affine map. -/
def lnCore192 (X : FVec Ideal S8x128x192 .f32) : FVec Ideal S8x128x192 .f32 :=
  mulf (centred192 X) (broadcastTo S8x128x192 (rstd192 X) Gen.broadcasts_S8x128x1_S8x128x192)

theorem lnCore192_apply (X : FVec Ideal S8x128x192 .f32) (r : Fin 8) (j : Fin 128) (l : Fin 192)
    (x : Fin 192 → EReal) (hx : ∀ k, X (ix3 r j k) = x k) :
    lnCore192 X (ix3 r j l)
      = (x l - mean c192 x) * Ideal.rsqrt (mean c192 (fun k => (x k - mean c192 x) * (x k - mean c192 x)) + eps) := by
  unfold lnCore192
  refine congrArg₂ (· * ·) (centred192_apply X r j l x hx) ?_
  refine (broadcastTo_ab1_abc_apply _ _ r j l).trans ?_
  exact rstd192_apply X r j 0 x hx

/-- The kernel's first-layer payload is the normalised first layer. -/
theorem pay7_eq (v3 v4 : FVec Ideal S64x192 .bf16) (v5 : Vec Ideal S192 .f32) (v16 : FVec Ideal S128x192 .f32)
    (v23 : Vec Ideal S1x8x128x64 .f32) (v26 : Vec Ideal S1x8x64 .f32) :
    Gen.k0_pay7 (F := Ideal) v3 v4 v5 v16 v23 v26 = lnCore192 (hidden v3 v4 v5 v16 v23 v26) := rfl

/-! ## The affine map, the positive part and the second layer -/

/-- The first norm's affine map followed by the positive part. -/
def act (v7 : Vec Ideal S192 .f32) (v60 : FVec Ideal S8x128x192 .f32) (v61 : FVec Ideal S1x1x192 .f32) :
    FVec Ideal S8x128x192 .f32 :=
  maximumf
    (addf (mulf v60 (broadcastTo S8x128x192 v61 Gen.broadcasts_S1x1x192_S8x128x192))
      (broadcastTo S8x128x192 (shapeCast S1x1x192 v7 Gen.shapeCasts_S192_S1x1x192) Gen.broadcasts_S1x1x192_S8x128x192))
    (broadcast S8x128x192 (Scalar.ofBits .f32 0x00000000#32))

theorem act_apply (v7 : Vec Ideal S192 .f32) (v60 : FVec Ideal S8x128x192 .f32) (v61 : FVec Ideal S1x1x192 .f32)
    (r : Fin 8) (j : Fin 128) (l : Fin 192) :
    act v7 v60 v61 (ix3 r j l) = max (v60 (ix3 r j l) * v61 (ix3 (0 : Fin 1) (0 : Fin 1) l) + v7 (ix1 l)) zero := by
  unfold act
  refine congrArg (fun t => max t zero) ?_
  refine congrArg₂ (· + ·) (congrArg (v60 (ix3 r j l) * ·) (broadcastTo_11c_abc_apply v61 _ r j l)) ?_
  refine (broadcastTo_11c_abc_apply _ _ r j l).trans ?_
  exact shapeCast_c_11c_apply v7 _ 0 0 l

/-- The second layer on the flattened chunk: the product, the bias and the residual edge rows. -/
def lin2 (v8 : Vec Ideal S192x64 .f32) (v10 : Vec Ideal S64 .f32) (v30 : FVec Ideal S1024x64 .f32)
    (A : FVec Ideal S8x128x192 .f32) : FVec Ideal S1024x64 .f32 :=
  addf (addf
    (matmul dot_S1024x192_S192x64_S1024x64_1_0_0_1_n_n none
      (truncf .bf16 (shapeCast S1024x192 A Gen.shapeCasts_S8x128x192_S1024x192) Gen.bitsLt_bf16_f32)
      (truncf .bf16 v8 Gen.bitsLt_bf16_f32) (constant S1024x64 .f32 0x00000000#32))
    (broadcastTo S1024x64 (shapeCast S1x64 v10 Gen.shapeCasts_S64_S1x64) Gen.broadcasts_S1x64_S1024x64)) v30

theorem lin2_apply (v8 : Vec Ideal S192x64 .f32) (v10 : Vec Ideal S64 .f32) (v30 : FVec Ideal S1024x64 .f32)
    (A : FVec Ideal S8x128x192 .f32) (r : Fin 8) (j : Fin 128) (q : Fin 64) (ρ : Fin 1024)
    (hρ : ρ.val = r.val * 128 + j.val) :
    lin2 v8 v10 v30 A (ix2 ρ q) = (∑ l : Fin 192, A (ix3 r j l) * v8 (ix2 l q)) + v10 (ix1 q) + v30 (ix2 ρ q) := by
  unfold lin2
  refine congrArg (· + v30 (ix2 ρ q)) (congrArg₂ (· + ·) ?_ ?_)
  · refine (matmul_plain_zero_apply none _ _ ρ q).trans ?_
    exact Finset.sum_congr rfl fun l _ => congrArg (· * v8 (ix2 l q)) (shapeCast_abc_nc_apply A _ r j l ρ hρ)
  · refine (broadcastTo_1b_ab_apply _ _ ρ q).trans ?_
    exact shapeCast_a_1a_apply v10 _ 0 q

/-! ## Normalising the 64-wide rows -/

/-- The row means of a `[1024, 64]` array, one per row, divided by the word `c`. -/
def meanCol64 (c : BitVec 32) (Y : FVec Ideal S1024x64 .f32) : FVec Ideal S1024x1 .f32 :=
  divf (shapeCast S1024x1 (multiReduction .add [1] S1024 Y 0x00000000#32 Gen.reduces_S1024x64_S1024 (.inl rfl) rfl)
    Gen.shapeCasts_S1024_S1024x1) (broadcast S1024x1 (Scalar.ofBits .f32 c))

theorem meanCol64_apply (c : BitVec 32) (Y : FVec Ideal S1024x64 .f32) (ρ : Fin 1024) (u : Fin 1)
    (y : Fin 64 → EReal) (hy : ∀ k, Y (ix2 ρ k) = y k) :
    meanCol64 c Y (ix2 ρ u) = mean (Ideal.ofBits .f32 c) y := by
  unfold meanCol64 mean
  refine congrArg (fun t => Ideal.div t (Ideal.ofBits .f32 c)) ?_
  refine (shapeCast_a_a1_apply _ _ ρ u).trans ?_
  refine (multiReduction_add_ab_a Y _ _ _ _ ρ).trans ?_
  exact Finset.sum_congr rfl fun k _ => hy k

/-- The rows with their means taken off. -/
def centred64 (Y : FVec Ideal S1024x64 .f32) : FVec Ideal S1024x64 .f32 :=
  subf Y (broadcastTo S1024x64 (meanCol64 0x42800000#32 Y) Gen.broadcasts_S1024x1_S1024x64)

theorem centred64_apply (Y : FVec Ideal S1024x64 .f32) (ρ : Fin 1024) (q : Fin 64)
    (y : Fin 64 → EReal) (hy : ∀ k, Y (ix2 ρ k) = y k) :
    centred64 Y (ix2 ρ q) = y q - mean c64 y := by
  unfold centred64
  refine congrArg₂ (· - ·) (hy q) ?_
  refine (broadcastTo_a1_ab_apply _ _ ρ q).trans ?_
  exact meanCol64_apply _ Y ρ 0 y hy

/-- The reciprocal root of each row's variance plus epsilon. -/
def rstd64 (Y : FVec Ideal S1024x64 .f32) : FVec Ideal S1024x1 .f32 :=
  rsqrt (addf (meanCol64 0x42800000#32 (mulf (centred64 Y) (centred64 Y)))
    (broadcast S1024x1 (Scalar.ofBits .f32 0x3727C5AC#32)))

theorem rstd64_apply (Y : FVec Ideal S1024x64 .f32) (ρ : Fin 1024) (u : Fin 1)
    (y : Fin 64 → EReal) (hy : ∀ k, Y (ix2 ρ k) = y k) :
    rstd64 Y (ix2 ρ u) = Ideal.rsqrt (mean c64 (fun k => (y k - mean c64 y) * (y k - mean c64 y)) + eps) := by
  unfold rstd64
  refine congrArg (fun t => Ideal.rsqrt (t + eps)) ?_
  exact meanCol64_apply _ _ ρ u _ fun k =>
    congrArg₂ (· * ·) (centred64_apply Y ρ k y hy) (centred64_apply Y ρ k y hy)

/-- The second norm with its affine map, cast back to the chunk's shape. -/
def out64 (v11 v12 : Vec Ideal S64 .f32) (Y : FVec Ideal S1024x64 .f32) : FVec Ideal S1x8x128x64 .f32 :=
  shapeCast S1x8x128x64
    (shapeCast S8x128x64
      (addf
        (mulf (mulf (centred64 Y) (broadcastTo S1024x64 (rstd64 Y) Gen.broadcasts_S1024x1_S1024x64))
          (broadcastTo S1024x64 (shapeCast S1x64 v11 Gen.shapeCasts_S64_S1x64) Gen.broadcasts_S1x64_S1024x64))
        (broadcastTo S1024x64 (shapeCast S1x64 v12 Gen.shapeCasts_S64_S1x64) Gen.broadcasts_S1x64_S1024x64))
      Gen.shapeCasts_S1024x64_S8x128x64) Gen.shapeCasts_S8x128x64_S1x8x128x64

theorem out64_apply (v11 v12 : Vec Ideal S64 .f32) (Y : FVec Ideal S1024x64 .f32) (r : Fin 8) (j : Fin 128) (q : Fin 64)
    (ρ : Fin 1024) (hρ : ρ.val = r.val * 128 + j.val) (y : Fin 64 → EReal) (hy : ∀ k, Y (ix2 ρ k) = y k) :
    out64 v11 v12 Y (ix4 (0 : Fin 1) r j q) = lnRow c64 y (fun q' => v11 (ix1 q')) (fun q' => v12 (ix1 q')) q := by
  unfold out64 lnRow
  refine (shapeCast_abc_1abc_apply _ _ 0 r j q).trans ?_
  refine (shapeCast_nc_abc_apply _ _ r j q ρ hρ).trans ?_
  refine congrArg₂ (· + ·) (congrArg₂ (· * ·) (congrArg₂ (· * ·) (centred64_apply Y ρ q y hy) ?_) ?_) ?_
  · refine (broadcastTo_a1_ab_apply _ _ ρ q).trans ?_
    exact rstd64_apply Y ρ 0 y hy
  · refine (broadcastTo_1b_ab_apply _ _ ρ q).trans ?_
    exact shapeCast_a_1a_apply v11 _ 0 q
  · refine (broadcastTo_1b_ab_apply _ _ ρ q).trans ?_
    exact shapeCast_a_1a_apply v12 _ 0 q

/-- The kernel's stored payload is the five stages composed. -/
theorem pay5_eq (v7 : Vec Ideal S192 .f32) (v8 : Vec Ideal S192x64 .f32) (v10 v11 v12 : Vec Ideal S64 .f32)
    (v30 : FVec Ideal S1024x64 .f32) (v60 : FVec Ideal S8x128x192 .f32) (v61 : FVec Ideal S1x1x192 .f32) :
    Gen.k0_pay5 (F := Ideal) v7 v8 v10 v11 v12 v30 v60 v61 = out64 v11 v12 (lin2 v8 v10 v30 (act v7 v60 v61)) := rfl

/-! ## The chunk at one row -/

/-- The stages after the first layer, read at `(0, r, j, q)`, are the row function of the first layer's row. -/
theorem stages_apply (v6 v7 : Vec Ideal S192 .f32) (v8 : Vec Ideal S192x64 .f32) (v10 v11 v12 : Vec Ideal S64 .f32)
    (H : FVec Ideal S8x128x192 .f32) (v23 : Vec Ideal S1x8x128x64 .f32) (r : Fin 8) (j : Fin 128) (q : Fin 64)
    (hl : Fin 192 → EReal) (hH : ∀ l, H (ix3 r j l) = hl l) :
    out64 v11 v12 (lin2 v8 v10 (Gen.k0_pay6 v23) (act v7 (lnCore192 H) (Gen.k0_pay8 v6))) (ix4 (0 : Fin 1) r j q)
      = rowOut (fun l => v6 (ix1 l)) (fun l => v7 (ix1 l)) (fun l q' => v8 (ix2 l q')) (fun q' => v10 (ix1 q'))
          (fun q' => v11 (ix1 q')) (fun q' => v12 (ix1 q')) hl (fun k => v23 (ix4 (0 : Fin 1) r j k)) q := by
  have hρ : r.val * 128 + j.val < 1024 := by have := r.isLt; have := j.isLt; omega
  unfold rowOut
  refine out64_apply v11 v12 _ r j q ⟨r.val * 128 + j.val, hρ⟩ rfl _ fun q' => ?_
  refine (lin2_apply v8 v10 _ _ r j q' _ rfl).trans ?_
  refine congrArg₂ (· + ·)
    (congrArg (· + v10 (ix1 q')) (Finset.sum_congr rfl fun l _ => congrArg (· * v8 (ix2 l q')) ?_))
    (pay6_apply v23 r j q' _ rfl)
  refine (act_apply v7 _ _ r j l).trans ?_
  unfold lnRow
  exact congrArg (fun t => max t zero) (congrArg (· + v7 (ix1 l))
    (congrArg₂ (· * ·) (lnCore192_apply H r j l hl hH) (pay8_apply v6 0 0 l)))

/-- One trip's stored array at `(0, r, j, q)`: the row function of the first layer at edge row `(r, j)` of the chunk,
    column node `j` and row node `r`. -/
theorem chunk_row (v0 : Vec Ideal S192x192 .f32) (v5 v6 v7 : Vec Ideal S192 .f32) (v8 : Vec Ideal S192x64 .f32)
    (v10 v11 v12 : Vec Ideal S64 .f32) (v13 : Vec Ideal S1x128x64 .f32) (v23 : Vec Ideal S1x8x128x64 .f32)
    (v26 : Vec Ideal S1x8x64 .f32) (r : Fin 8) (j : Fin 128) (q : Fin 64) :
    Gen.k0_pay5 (F := Ideal) v7 v8 v10 v11 v12 (Gen.k0_pay6 v23)
        (Gen.k0_pay7 (Gen.k0_pay2 v0) (Gen.k0_pay3 v0) v5 (Gen.k0_pay4 v0 v13) v23 v26) (Gen.k0_pay8 v6)
        (ix4 (0 : Fin 1) r j q)
      = Cert.EdgeRow.rowOut (fun l => v6 (ix1 l)) (fun l => v7 (ix1 l)) (fun l q' => v8 (ix2 l q'))
          (fun q' => v10 (ix1 q')) (fun q' => v11 (ix1 q')) (fun q' => v12 (ix1 q'))
          (Cert.EdgeRow.hlinK (fun k l => v0 (ix2 k l)) (fun l => v5 (ix1 l)) (fun k => v23 (ix4 (0 : Fin 1) r j k))
            (fun k => v13 (ix3 (0 : Fin 1) j k)) (fun k => v26 (ix3 (0 : Fin 1) r k)))
          (fun k => v23 (ix4 (0 : Fin 1) r j k)) q := by
  rw [pay5_eq, pay7_eq]
  refine stages_apply v6 v7 v8 v10 v11 v12 _ v23 r j q _ fun l => ?_
  refine (hidden_apply _ _ v5 _ v23 v26 r j l).trans ?_
  unfold hlinK
  refine congrArg (· + v5 (ix1 l)) (congrArg₂ (· + ·) (congrArg₂ (· + ·) ?_ (pay4_apply v0 v13 j l)) ?_)
  · exact Finset.sum_congr rfl fun k _ => congrArg (v23 (ix4 (0 : Fin 1) r j k) * ·) (pay3_apply v0 k l)
  · exact Finset.sum_congr rfl fun k _ => congrArg (v26 (ix3 (0 : Fin 1) r k) * ·) (pay2_apply v0 k l)

end Cert.KernelIdeal.KernelRow

end
-- ==== Proof.RowExt.lean ====
/-
  The row functions depend on their arguments only pointwise: rows that agree entry by entry give the same first
  layer and the same output row. Used to replace the blocks a kernel read by the argument arrays they are blocks of.
-/
import proofs.«173648_j75866302317034_2_alg».proof.Proof.RowSpec

noncomputable section

namespace Cert.EdgeRow

/-- The three-sum first layer at pointwise-equal arguments. -/
theorem hlinK_ext {W1 W1' : Fin 192 → Fin 192 → EReal} {b1 b1' : Fin 192 → EReal} {e e' n1 n1' n2 n2' : Fin 64 → EReal}
    (hW : ∀ k l, W1 k l = W1' k l) (hb : ∀ l, b1 l = b1' l) (he : ∀ k, e k = e' k) (h1 : ∀ k, n1 k = n1' k)
    (h2 : ∀ k, n2 k = n2' k) (l : Fin 192) : hlinK W1 b1 e n1 n2 l = hlinK W1' b1' e' n1' n2' l := by
  obtain rfl : W1 = W1' := funext fun k => funext fun l => hW k l
  obtain rfl : b1 = b1' := funext hb
  obtain rfl : e = e' := funext he
  obtain rfl : n1 = n1' := funext h1
  obtain rfl : n2 = n2' := funext h2
  rfl

/-- Everything after the first layer at pointwise-equal arguments. -/
theorem rowOut_ext {g1 g1' beta1 beta1' : Fin 192 → EReal} {W2 W2' : Fin 192 → Fin 64 → EReal}
    {b2 b2' g2 g2' beta2 beta2' : Fin 64 → EReal} {h h' : Fin 192 → EReal} {e e' : Fin 64 → EReal}
    (hg1 : ∀ l, g1 l = g1' l) (hbeta1 : ∀ l, beta1 l = beta1' l) (hW2 : ∀ l q, W2 l q = W2' l q)
    (hb2 : ∀ q, b2 q = b2' q) (hg2 : ∀ q, g2 q = g2' q) (hbeta2 : ∀ q, beta2 q = beta2' q)
    (hh : ∀ l, h l = h' l) (he : ∀ k, e k = e' k) (q : Fin 64) :
    rowOut g1 beta1 W2 b2 g2 beta2 h e q = rowOut g1' beta1' W2' b2' g2' beta2' h' e' q := by
  obtain rfl : g1 = g1' := funext hg1
  obtain rfl : beta1 = beta1' := funext hbeta1
  obtain rfl : W2 = W2' := funext fun l => funext fun q => hW2 l q
  obtain rfl : b2 = b2' := funext hb2
  obtain rfl : g2 = g2' := funext hg2
  obtain rfl : beta2 = beta2' := funext hbeta2
  obtain rfl : h = h' := funext hh
  obtain rfl : e = e' := funext he
  rfl

end Cert.EdgeRow

end
-- ==== Proof.IdealEntry.lean ====
/-
  The kernel's result array entry by entry, on the extended reals: at (b, i, j, ·) it is `rowOut` of the three-sum
  first layer `hlinK` of the edge vector edge[b,i,j], the column node's features node[b,j] and the row node's
  features node[b,i].

  The entry lies in the output block of grid point (b, i / 64), in row i % 64 of it, which the body stored in its trip
  (i % 64) / 8 as local row (i % 64) % 8 of that trip's chunk. The chunk is the row function of the staging buffers'
  contents; each staging buffer holds the block of its argument array that the point's index names, so each entry
  the row function reads is an entry of an argument array: 64·(i / 64) + 8·((i % 64) / 8) + (i % 64) % 8 = i.
-/
import proofs.«173648_j75866302317034_2_alg».proof.Proof.IdealArray
import proofs.«173648_j75866302317034_2_alg».proof.Proof.IdealChunk
import proofs.«173648_j75866302317034_2_alg».proof.Proof.KernelRow
import proofs.«173648_j75866302317034_2_alg».proof.Proof.RowExt

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The argument arrays on core `c`, as functions of their indices. -/
abbrev arr0 (c : Dev nD) : S16x128x64.Idx → Elt Ideal .f32 := m ((c : Thread nD τ).loc main_arg0)
abbrev arr1 (c : Dev nD) : S16x128x128x64.Idx → Elt Ideal .f32 := m ((c : Thread nD τ).loc main_arg1)
abbrev arr2 (c : Dev nD) : S192x192.Idx → Elt Ideal .f32 := m ((c : Thread nD τ).loc main_arg2)
abbrev arr3 (c : Dev nD) : S192.Idx → Elt Ideal .f32 := m ((c : Thread nD τ).loc main_arg3)
abbrev arr4 (c : Dev nD) : S192.Idx → Elt Ideal .f32 := m ((c : Thread nD τ).loc main_arg4)
abbrev arr5 (c : Dev nD) : S192.Idx → Elt Ideal .f32 := m ((c : Thread nD τ).loc main_arg5)
abbrev arr6 (c : Dev nD) : S192x64.Idx → Elt Ideal .f32 := m ((c : Thread nD τ).loc main_arg6)
abbrev arr7 (c : Dev nD) : S64.Idx → Elt Ideal .f32 := m ((c : Thread nD τ).loc main_arg7)
abbrev arr8 (c : Dev nD) : S64.Idx → Elt Ideal .f32 := m ((c : Thread nD τ).loc main_arg8)
abbrev arr9 (c : Dev nD) : S64.Idx → Elt Ideal .f32 := m ((c : Thread nD τ).loc main_arg9)

/-- The result array at (b, i, j, q), as the row function of the argument arrays. -/
theorem entry (c : Dev nD) (b : Fin 16) (i j : Fin 128) (q : Fin 64) :
    Garr (F := Ideal) m c (ix4 b i j q)
      = Cert.EdgeRow.rowOut (fun l => arr4 m c (ix1 l)) (fun l => arr5 m c (ix1 l)) (fun l q' => arr6 m c (ix2 l q'))
          (fun q' => arr7 m c (ix1 q')) (fun q' => arr8 m c (ix1 q')) (fun q' => arr9 m c (ix1 q'))
          (Cert.EdgeRow.hlinK (fun k l => arr2 m c (ix2 k l)) (fun l => arr3 m c (ix1 l))
            (fun k => arr1 m c (ix4 b i j k)) (fun k => arr0 m c (ix3 b j k)) (fun k => arr0 m c (ix3 b i k)))
          (fun k => arr1 m c (ix4 b i j k)) q := by
  have hb : b.val < 16 := b.isLt
  have hi : i.val < 128 := i.isLt
  unfold Garr
  generalize ht : ptOf (ix4 b i j q) = t
  have htv : t.val = b.val * 2 + i.val / 64 := by rw [← ht]; rfl
  have h0 : t.val / 2 = b.val := by omega
  have h1 : t.val % 2 = i.val / 64 := by omega
  rw [outAt_apply]
  unfold chunk
  rw [Cert.KernelIdeal.KernelRow.chunk_row]
  refine Cert.EdgeRow.rowOut_ext (fun l => iblk5_apply m c t l) (fun l => iblk6_apply m c t l) (fun l q' => iblk7_apply m c t l q')
    (fun q' => iblk8_apply m c t q') (fun q' => iblk9_apply m c t q') (fun q' => iblk10_apply m c t q')
    (fun l => Cert.EdgeRow.hlinK_ext (fun k l => iblk3_apply m c t k l) (fun l => iblk4_apply m c t l) ?_ ?_ ?_ l) ?_ q
  · intro k
    refine (iblk0_apply m c t _ _ _).trans (congrArg (arr1 m c) ?_)
    funext a
    match a with
    | ⟨0, _⟩ => exact Fin.ext h0
    | ⟨1, _⟩ => exact Fin.ext (by show 64 * (t.val % 2) + (8 * ((i.val % 64) / 8) + (i.val % 64) % 8) = i.val; omega)
    | ⟨2, _⟩ => rfl
    | ⟨3, _⟩ => rfl
  · intro k
    refine (iblk2_apply m c t _ _).trans (congrArg (arr0 m c) ?_)
    funext a
    match a with
    | ⟨0, _⟩ => exact Fin.ext h0
    | ⟨1, _⟩ => rfl
    | ⟨2, _⟩ => rfl
  · intro k
    refine (iblk1_apply m c t _ _).trans (congrArg (arr0 m c) ?_)
    funext a
    match a with
    | ⟨0, _⟩ => exact Fin.ext h0
    | ⟨1, _⟩ => exact Fin.ext (by show 64 * (t.val % 2) + (8 * ((i.val % 64) / 8) + (i.val % 64) % 8) = i.val; omega)
    | ⟨2, _⟩ => rfl
  · intro k
    refine (iblk0_apply m c t _ _ _).trans (congrArg (arr1 m c) ?_)
    funext a
    match a with
    | ⟨0, _⟩ => exact Fin.ext h0
    | ⟨1, _⟩ => exact Fin.ext (by show 64 * (t.val % 2) + (8 * ((i.val % 64) / 8) + (i.val % 64) % 8) = i.val; omega)
    | ⟨2, _⟩ => rfl
    | ⟨3, _⟩ => rfl

end Cert.KernelIdeal.Hand

end
-- ==== Proof.RefRow.lean ====
/-
  The reference's result row by row: at (b, i, j, ·) it is `rowOut` of the single 192-wide contraction `hlinR`.
-/
import proofs.«173648_j75866302317034_2_alg».proof.Proof.Gen.ReferenceIdeal.Read
import proofs.«173648_j75866302317034_2_alg».proof.Proof.RowSpec
import Idealize.ShloMosaic.Lib.ValueIdx
import Idealize.ShloMosaic.Lib.Pipeline.Value
import Idealize.ShloMosaic.PureOps.Ideal.Laws

noncomputable section

open scoped BigOperators

namespace Cert.ReferenceIdeal.RefRow

open Idealize.ShloMosaic Idealize.ShloMosaic.ValueIdx Cert.ReferenceIdeal Cert.ReferenceIdeal.Read

/-- The concatenated operand at (b, i, j, k): the column node's features below 64, the row node's from 64 to 127,
    the edge's from 128 on. -/
theorem cat_at (x0 : (⟨S16x128x64, .f32⟩ : BufTy).Contents (Elt Ideal))
    (x1 : (⟨S16x128x128x64, .f32⟩ : BufTy).Contents (Elt Ideal)) (b : Fin 16) (i j : Fin 128) (k : Fin 192) :
    val_main_v4 (F := Ideal) x0 x1 (ix4 b i j k)
      = Cert.EdgeRow.xcat (fun k => x1 (ix4 b i j k)) (fun k => x0 (ix3 b j k)) (fun k => x0 (ix3 b i k)) k := by
  unfold val_main_v4 Cert.EdgeRow.xcat
  split
  · next h =>
    refine Eq.trans (concatenate_apply_piece (t := S16x128x128x192) (3 : Fin 4)
      [⟨S16x128x128x64, (val_main_v1 (F := Ideal) x0)⟩, ⟨S16x128x128x64, (val_main_v3 (F := Ideal) x0)⟩, ⟨S16x128x128x64, (x1)⟩]
      _ (ix4 b i j k) 0 (Nat.succ_pos 2) S16x128x128x64
      (val_main_v1 (F := Ideal) x0) rfl rfl 0 rfl (ix4 b i j ⟨k.val, h⟩) ?_ ?_) ?_
    · intro a ha
      match a with
      | ⟨0, _⟩ => rfl
      | ⟨1, _⟩ => rfl
      | ⟨2, _⟩ => rfl
      | ⟨3, _⟩ => exact absurd rfl ha
    · show 0 + k.val = k.val
      omega
    · rw [val_main_v1_apply, val_main_v0_apply]
      exact congrArg x0 (funext fun a => by match a with | ⟨0, _⟩ => rfl | ⟨1, _⟩ => rfl | ⟨2, _⟩ => rfl)
  · next h =>
    split
    · next h2 =>
      refine Eq.trans (concatenate_apply_piece (t := S16x128x128x192) (3 : Fin 4)
        [⟨S16x128x128x64, (val_main_v1 (F := Ideal) x0)⟩, ⟨S16x128x128x64, (val_main_v3 (F := Ideal) x0)⟩, ⟨S16x128x128x64, (x1)⟩]
        _ (ix4 b i j k) 1 (Nat.succ_lt_succ (Nat.succ_pos 1)) S16x128x128x64
        (val_main_v3 (F := Ideal) x0) rfl rfl 64 rfl (ix4 b i j ⟨k.val - 64, by omega⟩) ?_ ?_) ?_
      · intro a ha
        match a with
        | ⟨0, _⟩ => rfl
        | ⟨1, _⟩ => rfl
        | ⟨2, _⟩ => rfl
        | ⟨3, _⟩ => exact absurd rfl ha
      · show 64 + (k.val - 64) = k.val
        omega
      · rw [val_main_v3_apply, val_main_v2_apply]
        exact congrArg x0 (funext fun a => by match a with | ⟨0, _⟩ => rfl | ⟨1, _⟩ => rfl | ⟨2, _⟩ => rfl)
    · next h2 =>
      refine concatenate_apply_piece (t := S16x128x128x192) (3 : Fin 4)
        [⟨S16x128x128x64, (val_main_v1 (F := Ideal) x0)⟩, ⟨S16x128x128x64, (val_main_v3 (F := Ideal) x0)⟩, ⟨S16x128x128x64, (x1)⟩]
        _ (ix4 b i j k) 2 (Nat.lt_succ_self 2) S16x128x128x64
        x1 rfl rfl 128 rfl (ix4 b i j ⟨k.val - 128, by have := k.isLt; omega⟩) ?_ ?_
      · intro a ha
        match a with
        | ⟨0, _⟩ => rfl
        | ⟨1, _⟩ => rfl
        | ⟨2, _⟩ => rfl
        | ⟨3, _⟩ => exact absurd rfl ha
      · show 128 + (k.val - 128) = k.val
        omega

variable (x0 : (⟨S16x128x64, .f32⟩ : BufTy).Contents (Elt Ideal))
  (x1 : (⟨S16x128x128x64, .f32⟩ : BufTy).Contents (Elt Ideal))
  (x2 : (⟨S192x192, .f32⟩ : BufTy).Contents (Elt Ideal))
  (x3 x4 x5 : (⟨S192, .f32⟩ : BufTy).Contents (Elt Ideal))
  (x6 : (⟨S192x64, .f32⟩ : BufTy).Contents (Elt Ideal))
  (x7 x8 x9 : (⟨S64, .f32⟩ : BufTy).Contents (Elt Ideal))
  (b : Fin 16) (i j : Fin 128)

/-- The hidden row before its layer norm, at (b, i, j): the 192-wide contraction of the concatenated vector plus the bias. -/
abbrev hRow : Fin 192 → EReal :=
  Cert.EdgeRow.hlinR (fun k l => x2 (ix2 k l)) (fun l => x3 (ix1 l)) (fun k => x1 (ix4 b i j k))
    (fun k => x0 (ix3 b j k)) (fun k => x0 (ix3 b i k))

/-- The first layer at (b, i, j, l). -/
theorem v8_at (l : Fin 192) :
    val_main_v8 (F := Ideal) x0 x1 x2 x3 (ix4 b i j l) = hRow x0 x1 x2 x3 b i j l := by
  rw [val_main_v8_apply, val_main_v5_apply, val_main_v7_apply, val_main_v6_apply, Ideal.addf_def]
  unfold hRow Cert.EdgeRow.hlinR
  refine congrArg₂ (· + ·) (Finset.sum_congr rfl fun k _ => ?_)
    (congrArg x3 (funext fun a => by match a with | ⟨0, _⟩ => rfl))
  have e1 : lidx_main_v5 (ix4 b i j l) k = ix4 b i j k :=
    funext fun a => by match a with | ⟨0, _⟩ => rfl | ⟨1, _⟩ => rfl | ⟨2, _⟩ => rfl | ⟨3, _⟩ => rfl
  have e2 : ridx_main_v5 (ix4 b i j l) k = ix2 k l :=
    funext fun a => by match a with | ⟨0, _⟩ => rfl | ⟨1, _⟩ => rfl
  rw [e1, e2, cat_at]

/-- The mean of the hidden row, as the reference's keepdims column holds it. -/
theorem v12_at (z : Fin 1) :
    val_main_v12 (F := Ideal) x0 x1 x2 x3 (ix4 b i j z)
      = Cert.EdgeRow.mean Cert.EdgeRow.c192 (hRow x0 x1 x2 x3 b i j) := by
  rw [val_main_v12_apply, val_main_v10_apply, val_main_v9_apply, val_main_v11_apply, val_main_cst_0_apply,
    val_main_cst_apply, Ideal.hostDivf_def, Ideal.ofBits_def, Ideal.ofBits_def, Ideal.ofBits_zero_f32, zero_add]
  refine congrArg (fun s => Ideal.div s Cert.EdgeRow.c192) (Finset.sum_congr rfl fun k _ => ?_)
  have e : idx_main_v9 (idx_main_v10 (ix4 b i j z)) k = ix4 b i j k :=
    funext fun a => by match a with | ⟨0, _⟩ => rfl | ⟨1, _⟩ => rfl | ⟨2, _⟩ => rfl | ⟨3, _⟩ => rfl
  rw [e, v8_at]

/-- The variance of the hidden row plus epsilon, as the reference's keepdims column holds it. -/
theorem v23_at (z : Fin 1) :
    val_main_v23 (F := Ideal) x0 x1 x2 x3 (ix4 b i j z)
      = Cert.EdgeRow.mean Cert.EdgeRow.c192 (fun k =>
          (hRow x0 x1 x2 x3 b i j k - Cert.EdgeRow.mean Cert.EdgeRow.c192 (hRow x0 x1 x2 x3 b i j))
            * (hRow x0 x1 x2 x3 b i j k - Cert.EdgeRow.mean Cert.EdgeRow.c192 (hRow x0 x1 x2 x3 b i j)))
        + Cert.EdgeRow.eps := by
  rw [val_main_v23_apply, val_main_v19_apply, val_main_v17_apply, val_main_v16_apply, val_main_v18_apply,
    val_main_cst_2_apply, val_main_cst_1_apply, val_main_v22_apply, val_main_cst_3_apply, Ideal.addf_def,
    Ideal.hostDivf_def, Ideal.ofBits_def, Ideal.ofBits_def, Ideal.ofBits_def, Ideal.ofBits_zero_f32, zero_add]
  refine congrArg (fun s => s + Cert.EdgeRow.eps) ?_
  refine congrArg (fun s => Ideal.div s Cert.EdgeRow.c192) (Finset.sum_congr rfl fun k _ => ?_)
  have e : idx_main_v16 (idx_main_v17 (ix4 b i j z)) k = ix4 b i j k :=
    funext fun a => by match a with | ⟨0, _⟩ => rfl | ⟨1, _⟩ => rfl | ⟨2, _⟩ => rfl | ⟨3, _⟩ => rfl
  have e' : idx_main_v13 (ix4 b i j k) = ix4 b i j (0 : Fin 1) :=
    funext fun a => by match a with | ⟨0, _⟩ => rfl | ⟨1, _⟩ => rfl | ⟨2, _⟩ => rfl | ⟨3, _⟩ => rfl
  rw [e, val_main_v15_apply, val_main_v14_apply, val_main_v13_apply, e', v12_at, v8_at, Ideal.mulf_def,
    Ideal.subf_def]

/-- The hidden row after its layer norm, at (b, i, j, l). -/
theorem v32_at (l : Fin 192) :
    val_main_v32 (F := Ideal) x0 x1 x2 x3 x4 x5 (ix4 b i j l)
      = Cert.EdgeRow.lnRow Cert.EdgeRow.c192 (hRow x0 x1 x2 x3 b i j) (fun l => x4 (ix1 l)) (fun l => x5 (ix1 l)) l := by
  have e20 : idx_main_v20 (ix4 b i j l) = ix4 b i j (0 : Fin 1) :=
    funext fun a => by match a with | ⟨0, _⟩ => rfl | ⟨1, _⟩ => rfl | ⟨2, _⟩ => rfl | ⟨3, _⟩ => rfl
  have e25 : idx_main_v25 (ix4 b i j l) = ix4 b i j (0 : Fin 1) :=
    funext fun a => by match a with | ⟨0, _⟩ => rfl | ⟨1, _⟩ => rfl | ⟨2, _⟩ => rfl | ⟨3, _⟩ => rfl
  have e28 : idx_main_v27 (idx_main_v28 (ix4 b i j l)) = ix1 l :=
    funext fun a => by match a with | ⟨0, _⟩ => rfl
  have e31 : idx_main_v30 (idx_main_v31 (ix4 b i j l)) = ix1 l :=
    funext fun a => by match a with | ⟨0, _⟩ => rfl
  rw [val_main_v32_apply, val_main_v29_apply, val_main_v26_apply, val_main_v21_apply, val_main_v20_apply, e20,
    val_main_v25_apply, e25, val_main_v24_apply, val_main_v28_apply, val_main_v27_apply, e28, val_main_v31_apply,
    val_main_v30_apply, e31, v8_at, v12_at, v23_at, Ideal.addf_def, Ideal.mulf_def, Ideal.mulf_def, Ideal.subf_def,
    Ideal.hostUnary_rsqrt_def]
  rfl

/-- The hidden row after the positive part, at (b, i, j, l). -/
theorem v33_at (l : Fin 192) :
    val_main_v33 (F := Ideal) x0 x1 x2 x3 x4 x5 (ix4 b i j l)
      = max (Cert.EdgeRow.lnRow Cert.EdgeRow.c192 (hRow x0 x1 x2 x3 b i j) (fun l => x4 (ix1 l)) (fun l => x5 (ix1 l)) l)
          Cert.EdgeRow.zero := by
  rw [val_main_v33_apply, val_main_call0_v0_apply, val_main_call0_cst_apply, v32_at, Ideal.maximumf_def,
    Ideal.ofBits_def]

/-- The row entering the second layer norm, at (b, i, j): the second layer of the positive part of the normed hidden row,
    its bias, and the residual edge vector. -/
abbrev yRow : Fin 64 → EReal := fun q =>
  (∑ l : Fin 192,
      max (Cert.EdgeRow.lnRow Cert.EdgeRow.c192 (hRow x0 x1 x2 x3 b i j) (fun l => x4 (ix1 l)) (fun l => x5 (ix1 l)) l)
          Cert.EdgeRow.zero * x6 (ix2 l q))
    + x7 (ix1 q) + x1 (ix4 b i j q)

/-- The second layer with its bias and the residual, at (b, i, j, q). -/
theorem v38_at (q : Fin 64) :
    val_main_v38 (F := Ideal) x0 x1 x2 x3 x4 x5 x6 x7 (ix4 b i j q) = yRow x0 x1 x2 x3 x4 x5 x6 x7 b i j q := by
  have e36 : idx_main_v35 (idx_main_v36 (ix4 b i j q)) = ix1 q :=
    funext fun a => by match a with | ⟨0, _⟩ => rfl
  rw [val_main_v38_apply, val_main_v37_apply, val_main_v34_apply, val_main_v36_apply, val_main_v35_apply, e36,
    Ideal.addf_def, Ideal.addf_def]
  refine congrArg (fun s => s + x7 (ix1 q) + x1 (ix4 b i j q)) (Finset.sum_congr rfl fun l _ => ?_)
  have e1 : lidx_main_v34 (ix4 b i j q) l = ix4 b i j l :=
    funext fun a => by match a with | ⟨0, _⟩ => rfl | ⟨1, _⟩ => rfl | ⟨2, _⟩ => rfl | ⟨3, _⟩ => rfl
  have e2 : ridx_main_v34 (ix4 b i j q) l = ix2 l q :=
    funext fun a => by match a with | ⟨0, _⟩ => rfl | ⟨1, _⟩ => rfl
  rw [e1, e2, v33_at]

/-- The mean of that row, as the reference's keepdims column holds it. -/
theorem v42_at (z : Fin 1) :
    val_main_v42 (F := Ideal) x0 x1 x2 x3 x4 x5 x6 x7 (ix4 b i j z)
      = Cert.EdgeRow.mean Cert.EdgeRow.c64 (yRow x0 x1 x2 x3 x4 x5 x6 x7 b i j) := by
  rw [val_main_v42_apply, val_main_v40_apply, val_main_v39_apply, val_main_v41_apply, val_main_cst_5_apply,
    val_main_cst_4_apply, Ideal.hostDivf_def, Ideal.ofBits_def, Ideal.ofBits_def, Ideal.ofBits_zero_f32, zero_add]
  refine congrArg (fun s => Ideal.div s Cert.EdgeRow.c64) (Finset.sum_congr rfl fun k _ => ?_)
  have e : idx_main_v39 (idx_main_v40 (ix4 b i j z)) k = ix4 b i j k :=
    funext fun a => by match a with | ⟨0, _⟩ => rfl | ⟨1, _⟩ => rfl | ⟨2, _⟩ => rfl | ⟨3, _⟩ => rfl
  rw [e, v38_at]

/-- Its variance plus epsilon, as the reference's keepdims column holds it. -/
theorem v53_at (z : Fin 1) :
    val_main_v53 (F := Ideal) x0 x1 x2 x3 x4 x5 x6 x7 (ix4 b i j z)
      = Cert.EdgeRow.mean Cert.EdgeRow.c64 (fun k =>
          (yRow x0 x1 x2 x3 x4 x5 x6 x7 b i j k - Cert.EdgeRow.mean Cert.EdgeRow.c64 (yRow x0 x1 x2 x3 x4 x5 x6 x7 b i j))
            * (yRow x0 x1 x2 x3 x4 x5 x6 x7 b i j k
                - Cert.EdgeRow.mean Cert.EdgeRow.c64 (yRow x0 x1 x2 x3 x4 x5 x6 x7 b i j)))
        + Cert.EdgeRow.eps := by
  rw [val_main_v53_apply, val_main_v49_apply, val_main_v47_apply, val_main_v46_apply, val_main_v48_apply,
    val_main_cst_7_apply, val_main_cst_6_apply, val_main_v52_apply, val_main_cst_8_apply, Ideal.addf_def,
    Ideal.hostDivf_def, Ideal.ofBits_def, Ideal.ofBits_def, Ideal.ofBits_def, Ideal.ofBits_zero_f32, zero_add]
  refine congrArg (fun s => s + Cert.EdgeRow.eps) ?_
  refine congrArg (fun s => Ideal.div s Cert.EdgeRow.c64) (Finset.sum_congr rfl fun k _ => ?_)
  have e : idx_main_v46 (idx_main_v47 (ix4 b i j z)) k = ix4 b i j k :=
    funext fun a => by match a with | ⟨0, _⟩ => rfl | ⟨1, _⟩ => rfl | ⟨2, _⟩ => rfl | ⟨3, _⟩ => rfl
  have e' : idx_main_v43 (ix4 b i j k) = ix4 b i j (0 : Fin 1) :=
    funext fun a => by match a with | ⟨0, _⟩ => rfl | ⟨1, _⟩ => rfl | ⟨2, _⟩ => rfl | ⟨3, _⟩ => rfl
  rw [e, val_main_v45_apply, val_main_v44_apply, val_main_v43_apply, e', v42_at, v38_at, Ideal.mulf_def,
    Ideal.subf_def]

/-- The reference's result at (b, i, j, q) is the row function of the single 192-wide contraction. -/
theorem ref_row (x0 : (⟨S16x128x64, .f32⟩ : BufTy).Contents (Elt Ideal))
    (x1 : (⟨S16x128x128x64, .f32⟩ : BufTy).Contents (Elt Ideal))
    (x2 : (⟨S192x192, .f32⟩ : BufTy).Contents (Elt Ideal))
    (x3 x4 x5 : (⟨S192, .f32⟩ : BufTy).Contents (Elt Ideal))
    (x6 : (⟨S192x64, .f32⟩ : BufTy).Contents (Elt Ideal))
    (x7 x8 x9 : (⟨S64, .f32⟩ : BufTy).Contents (Elt Ideal))
    (b : Fin 16) (i j : Fin 128) (q : Fin 64) :
    Cert.ReferenceIdeal.Read.val_main_v62 (F := Ideal) x0 x1 x2 x3 x4 x5 x6 x7 x8 x9 (ix4 b i j q)
      = Cert.EdgeRow.rowOut (fun l => x4 (ix1 l)) (fun l => x5 (ix1 l)) (fun l q' => x6 (ix2 l q'))
          (fun q' => x7 (ix1 q')) (fun q' => x8 (ix1 q')) (fun q' => x9 (ix1 q'))
          (Cert.EdgeRow.hlinR (fun k l => x2 (ix2 k l)) (fun l => x3 (ix1 l)) (fun k => x1 (ix4 b i j k))
            (fun k => x0 (ix3 b j k)) (fun k => x0 (ix3 b i k)))
          (fun k => x1 (ix4 b i j k)) q := by
  have e50 : idx_main_v50 (ix4 b i j q) = ix4 b i j (0 : Fin 1) :=
    funext fun a => by match a with | ⟨0, _⟩ => rfl | ⟨1, _⟩ => rfl | ⟨2, _⟩ => rfl | ⟨3, _⟩ => rfl
  have e55 : idx_main_v55 (ix4 b i j q) = ix4 b i j (0 : Fin 1) :=
    funext fun a => by match a with | ⟨0, _⟩ => rfl | ⟨1, _⟩ => rfl | ⟨2, _⟩ => rfl | ⟨3, _⟩ => rfl
  have e58 : idx_main_v57 (idx_main_v58 (ix4 b i j q)) = ix1 q :=
    funext fun a => by match a with | ⟨0, _⟩ => rfl
  have e61 : idx_main_v60 (idx_main_v61 (ix4 b i j q)) = ix1 q :=
    funext fun a => by match a with | ⟨0, _⟩ => rfl
  rw [val_main_v62_apply, val_main_v59_apply, val_main_v56_apply, val_main_v51_apply, val_main_v50_apply, e50,
    val_main_v55_apply, e55, val_main_v54_apply, val_main_v58_apply, val_main_v57_apply, e58, val_main_v61_apply,
    val_main_v60_apply, e61, v38_at, v42_at, v53_at, Ideal.addf_def, Ideal.mulf_def, Ideal.mulf_def, Ideal.subf_def,
    Ideal.hostUnary_rsqrt_def]
  rfl

end Cert.ReferenceIdeal.RefRow

end
-- ==== Proof.RowAlgebra.lean ====
/-
  The first layer of the edge update, stated two ways, is one sum: contracting the concatenated 192-vector [n1 | n2 | e]
  against W1 is the sum of the three 64-wide partial products, because a sum over 192 consecutive indices is the sum
  over its three consecutive blocks of 64 and addition of extended reals is commutative and associative.
-/
import proofs.«173648_j75866302317034_2_alg».proof.Proof.RowSpec
import Mathlib.Algebra.BigOperators.Fin

noncomputable section

open scoped BigOperators

namespace Cert.EdgeRow

/-- A sum over 192 consecutive indices is the sum over its three consecutive blocks of 64. -/
theorem sum_fin192_blocks {M : Type*} [AddCommMonoid M] (f : Fin 192 → M) :
    ∑ k : Fin 192, f k
      = (∑ k : Fin 64, f ⟨k.val, by have := k.isLt; omega⟩)
        + (∑ k : Fin 64, f ⟨64 + k.val, by have := k.isLt; omega⟩)
        + (∑ k : Fin 64, f ⟨128 + k.val, by have := k.isLt; omega⟩) := by
  have h1 : ∑ k : Fin 192, f k
      = (∑ k : Fin 64, f ⟨k.val, by have := k.isLt; omega⟩)
        + ∑ k : Fin 128, f ⟨64 + k.val, by have := k.isLt; omega⟩ :=
    Fin.sum_univ_add (a := 64) (b := 128) f
  have h2 : ∑ k : Fin 128, f ⟨64 + k.val, by have := k.isLt; omega⟩
      = (∑ k : Fin 64, f ⟨64 + k.val, by have := k.isLt; omega⟩)
        + ∑ k : Fin 64, f ⟨128 + k.val, by have := k.isLt; omega⟩ := by
    refine (Fin.sum_univ_add (a := 64) (b := 64)
      (fun k : Fin 128 => f ⟨64 + k.val, by have := k.isLt; omega⟩)).trans ?_
    refine congrArg₂ (· + ·) rfl (Finset.sum_congr rfl (fun k _ => ?_))
    exact congrArg f (Fin.ext (by show 64 + (64 + k.val) = 128 + k.val; omega))
  rw [h1, h2, add_assoc]

theorem xcat_block0 (e n1 n2 : Fin 64 → EReal) (k : Fin 64) (h : k.val < 192) :
    xcat e n1 n2 ⟨k.val, h⟩ = n1 k := by
  unfold xcat
  rw [dif_pos (show (⟨k.val, h⟩ : Fin 192).val < 64 from k.isLt)]

theorem xcat_block1 (e n1 n2 : Fin 64 → EReal) (k : Fin 64) (h : 64 + k.val < 192) :
    xcat e n1 n2 ⟨64 + k.val, h⟩ = n2 k := by
  unfold xcat
  rw [dif_neg (show ¬ (⟨64 + k.val, h⟩ : Fin 192).val < 64 from by show ¬ 64 + k.val < 64; omega),
    dif_pos (show (⟨64 + k.val, h⟩ : Fin 192).val < 128 from by show 64 + k.val < 128; have := k.isLt; omega)]
  exact congrArg n2 (Fin.ext (by show 64 + k.val - 64 = k.val; omega))

theorem xcat_block2 (e n1 n2 : Fin 64 → EReal) (k : Fin 64) (h : 128 + k.val < 192) :
    xcat e n1 n2 ⟨128 + k.val, h⟩ = e k := by
  unfold xcat
  rw [dif_neg (show ¬ (⟨128 + k.val, h⟩ : Fin 192).val < 64 from by show ¬ 128 + k.val < 64; omega),
    dif_neg (show ¬ (⟨128 + k.val, h⟩ : Fin 192).val < 128 from by show ¬ 128 + k.val < 128; omega)]
  exact congrArg e (Fin.ext (by show 128 + k.val - 128 = k.val; omega))

/-- The three 64-wide partial products add up to the single 192-wide contraction of the concatenated vector. -/
theorem hlinK_eq_hlinR (W1 : Fin 192 → Fin 192 → EReal) (b1 : Fin 192 → EReal) (e n1 n2 : Fin 64 → EReal)
    (l : Fin 192) : hlinK W1 b1 e n1 n2 l = hlinR W1 b1 e n1 n2 l := by
  unfold hlinK hlinR
  rw [sum_fin192_blocks (fun k => xcat e n1 n2 k * W1 k l)]
  simp only [xcat_block0, xcat_block1, xcat_block2]
  refine congrArg (· + b1 l) ?_
  exact (add_assoc _ _ _).trans (add_comm _ _)

end Cert.EdgeRow

end
-- ==== Proof.lean ====
/-
  An edge update of a graph network: for a batch element b and nodes i, j,
    out[b,i,j,·] = LayerNorm_64 (max (LayerNorm_192 ([node[b,j] | node[b,i] | edge[b,i,j]]·W1 + b1)) 0 · W2 + b2 + edge[b,i,j]).
  The kernel never forms the concatenated 192-vector: it adds the three 64-wide partial products of its parts against
  the matching rows of W1, eight rows of the edge block at a time; the reference contracts the concatenation in one
  sum. On the extended reals the two first layers are one finite sum grouped two ways, and everything after the first
  layer is the same function of it, so the two results agree entry by entry; no finiteness is used.

  The frames: the kernel programs hand the node features to the pallas_call twice, so two windows read one array and
  its share is dealt between them; the reference is host operations only and its frame is its run with the result
  dropped. The idealization rewrote nothing, so there is nothing to preserve.
-/
import proofs.«173648_j75866302317034_2_alg».proof.Defs
import proofs.«173648_j75866302317034_2_alg».proof.Proof.BitsRun
import proofs.«173648_j75866302317034_2_alg».proof.Proof.IdealRun
import proofs.«173648_j75866302317034_2_alg».proof.Proof.IdealEntry
import proofs.«173648_j75866302317034_2_alg».proof.Proof.RefRow
import proofs.«173648_j75866302317034_2_alg».proof.Proof.RowAlgebra
import proofs.«173648_j75866302317034_2_alg».proof.Proof.Gen.ReferenceIdeal
import proofs.«173648_j75866302317034_2_alg».proof.Proof.Gen.Pre_finite_inputs
import Idealize.ShloMosaic.Adequacy
import Idealize.ShloMosaic.Init

noncomputable section

namespace Cert.Proof

open Idealize.ShloMosaic Idealize.ShloMosaic.ValueIdx Idealize.SL.Sem

/-- The word-level kernel program runs to its end and leaves its arguments as they were. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals the two programs end with equal results: the kernel's result array is, entry by entry, the
    row function of the argument arrays with the first layer as three partial sums; the reference's is the same row
    function with the first layer as one sum over the concatenation; the two first layers are one finite sum. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.Garr m c, ?_, ?_⟩
  · exact (θ_run Cert.KernelIdeal.defs _ _).mono
      (fun r h c => ⟨(h c).1.trans (Cert.KernelIdeal.Hand.final m c), (h c).2⟩) (Cert.KernelIdeal.Hand.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v62_eq]
    funext y
    obtain ⟨b, i, j, q, rfl⟩ : ∃ (b : Fin 16) (i j : Fin 128) (q : Fin 64), y = ix4 b i j q := ⟨y 0, y 1, y 2, y 3, eq_ix4 y⟩
    rw [Cert.ReferenceIdeal.RefRow.ref_row]
    refine Eq.trans ?_ (Cert.KernelIdeal.Hand.entry m c b i j q).symm
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact Cert.EdgeRow.rowOut_ext (fun _ => rfl) (fun _ => rfl) (fun _ _ => rfl) (fun _ => rfl) (fun _ => rfl) (fun _ => rfl)
      (fun l => (Cert.EdgeRow.hlinK_eq_hlinR _ _ _ _ _ l).symm) (fun _ => rfl) q

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
